-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S65536 : Shape := ⟨1, ![65536]⟩
abbrev S65536x5 : Shape := ⟨2, ![65536, 5]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S65536x5 : S_.BroadcastsInDim S65536x5 (![] : Fin 0 → Fin S65536x5.rank)
  reducesTo_S65536x5_S_d0_1 : S65536x5.ReducesTo [0, 1] S_

variable [Facts]

def fn {F : FTy → Type} [FloatOps F] (main_arg0 : FVec F S65536x3 .f32) (main_arg1 : IVec S65536 32) (main_arg2 : FVec F S65536x5 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S65536x5 .f32 := Host.absf main_arg2
  let main_cst_0 : FVec F S_ .f32 := constant S_ .f32 0x7F800000#32
  let main_v5 : FVec F S65536x5 .f32 := broadcastInDim S65536x5 ![] bcast_S_S65536x5 main_cst_0
  let main_v6 : IVec S65536x5 1 := cmpf .olt main_v4 main_v5
  let main_c_1 : IVec S_ 1 := constantI S_ 1 1#1
  let main_v7 : IVec S_ 1 := (fun x v => Host.reduce IntOp.andi x v reducesTo_S65536x5_S_d0_1 h_S_) main_v6 main_c_1
  let main_v8 : IVec S_ 1 := andi main_v3 main_v7
  main_v8
-- ==== Kernel.lean ====
abbrev S65536x3 : Shape := ⟨2, ![65536, 3]⟩
abbrev S65536 : Shape := ⟨1, ![65536]⟩
abbrev S65536x5 : Shape := ⟨2, ![65536, 5]⟩
abbrev S_ : Shape := ⟨0, ![]⟩
abbrev S16x4096x3 : Shape := ⟨3, ![16, 4096, 3]⟩
abbrev S16x3x4096 : Shape := ⟨3, ![16, 3, 4096]⟩
abbrev S16x4096 : Shape := ⟨2, ![16, 4096]⟩
abbrev S16x1x4096 : Shape := ⟨3, ![16, 1, 4096]⟩
abbrev S16x4096x1 : Shape := ⟨3, ![16, 4096, 1]⟩
abbrev S1x2048x3 : Shape := ⟨3, ![1, 2048, 3]⟩
abbrev S1x3x1024 : Shape := ⟨3, ![1, 3, 1024]⟩
abbrev S1x1x1024 : Shape := ⟨3, ![1, 1, 1024]⟩
abbrev S1x2048x1 : Shape := ⟨3, ![1, 2048, 1]⟩
abbrev S1x1x4096 : Shape := ⟨3, ![1, 1, 4096]⟩
abbrev S2048x1 : Shape := ⟨2, ![2048, 1]⟩
abbrev S1x4096 : Shape := ⟨2, ![1, 4096]⟩
abbrev S2048x3 : Shape := ⟨2, ![2048, 3]⟩
abbrev S3x1024 : Shape := ⟨2, ![3, 1024]⟩
abbrev S1x1024 : Shape := ⟨2, ![1, 1024]⟩
abbrev S2048 : Shape := ⟨1, ![2048]⟩
abbrev S2048x1024 : Shape := ⟨2, ![2048, 1024]⟩
abbrev S1024 : Shape := ⟨1, ![1024]⟩
abbrev S16 : Shape := ⟨1, ![16]⟩

abbrev nBuf : Space → Nat
  | .hbm => 36
  | .vmem => 12
  | .smem => 0
  | _ => 0

abbrev bufTy : (tb : Table) → Fin (tcTables nBuf tb) → BufTy
  | .hbm, ⟨0, _⟩ => ⟨S65536x3, .f32⟩
  | .hbm, ⟨1, _⟩ => ⟨S65536, .i32⟩
  | .hbm, ⟨2, _⟩ => ⟨S65536x5, .f32⟩
  | .hbm, ⟨3, _⟩ => ⟨S65536x3, .f32⟩
  | .hbm, ⟨4, _⟩ => ⟨S_, .f32⟩
  | .hbm, ⟨5, _⟩ => ⟨S65536x3, .f32⟩
  | .hbm, ⟨6, _⟩ => ⟨S65536x3, .f32⟩
  | .hbm, ⟨7, _⟩ => ⟨S_, .f32⟩
  | .hbm, ⟨8, _⟩ => ⟨S65536x3, .f32⟩
  | .hbm, ⟨9, _⟩ => ⟨S65536x3, .f32⟩
  | .hbm, ⟨10, _⟩ => ⟨S16x4096x3, .f32⟩
  | .hbm, ⟨11, _⟩ => ⟨S16x4096x3, .f32⟩
  | .hbm, ⟨12, _⟩ => ⟨S16x3x4096, .f32⟩
  | .hbm, ⟨13, _⟩ => ⟨S16x4096x3, .f32⟩
  | .hbm, ⟨14, _⟩ => ⟨S_, .f32⟩
  | .hbm, ⟨15, _⟩ => ⟨S16x4096, .f32⟩
  | .hbm, ⟨16, _⟩ => ⟨S16x1x4096, .f32⟩
  | .hbm, ⟨17, _⟩ => ⟨S16x4096x1, .f32⟩
  | .hbm, ⟨18, _⟩ => ⟨S16x1x4096, .f32⟩
  | .hbm, ⟨19, _⟩ => ⟨S16x4096, .f32⟩
  | .hbm, ⟨20, _⟩ => ⟨S16x4096, .f32⟩
  | .hbm, ⟨21, _⟩ => ⟨S_, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x2048x1, .f32⟩
  | .local _ .vmem, ⟨7, _⟩ => ⟨S1x2048x1, .f32⟩
  | .local _ .vmem, ⟨8, _⟩ => ⟨S1x1x4096, .f32⟩
  | .local _ .vmem, ⟨9, _⟩ => ⟨S1x1x4096, .f32⟩
  | .local _ .vmem, ⟨10, _⟩ => ⟨S2048x1, .f32⟩
  | .local _ .vmem, ⟨11, _⟩ => ⟨S1x4096, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 4], ![false, false, false]⟩

def k0_mult1 (i : grid0.Coords) : BitVec 32 :=
  let arg2 : BitVec 32 := BitVec.ofNat 32 (i 2).val
  let c1024_i32 : BitVec 32 := 1024#32
  let v33 : BitVec 32 := Scalar.muli arg2 c1024_i32
  v33
def k0_off1 (i : grid0.Coords) : Fin 2 → Nat :=
  let c0_20 : Index := 0#32
  let arg2 : BitVec 32 := BitVec.ofNat 32 (i 2).val
  let c1024_i32 : BitVec 32 := 1024#32
  let v33 : BitVec 32 := Scalar.muli arg2 c1024_i32
  let v34 : BitVec 32 := v33
  let v35 : Index := Scalar.indexCast v34
  ![0, v35.toNat]
def k0_cond3 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_22 : BitVec 32 := 0#32
  let v44 : BitVec 1 := Scalar.cmpi .ne v43 c0_i32_22
  v44

def k0_cond4 (i : grid0.Coords) : BitVec 1 :=
  let arg1 : BitVec 32 := BitVec.ofNat 32 (i 1).val
  let c1_i32 : BitVec 32 := 1#32
  let v45 : BitVec 1 := Scalar.cmpi .eq arg1 c1_i32
  let arg2 : BitVec 32 := BitVec.ofNat 32 (i 2).val
  let c3_i32_23 : BitVec 32 := 3#32
  let v46 : BitVec 1 := Scalar.cmpi .eq arg2 c3_i32_23
  let v47 : BitVec 1 := Scalar.andi v45 v46
  let v48 : BitVec 32 := Scalar.extui v47
  let c0_i32_24 : BitVec 32 := 0#32
  let v49 : BitVec 1 := Scalar.cmpi .ne v48 c0_i32_24
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  slices_S65536x5_S65536x3_0_1 : S65536x5.Slices ![0, 1] S65536x3
  bcast_S_S65536x3 : S_.BroadcastsInDim S65536x3 (![] : Fin 0 → Fin S65536x3.rank)
  shapeCasts_S65536x3_S16x4096x3 : S65536x3.ShapeCasts S16x4096x3
  transposes_S16x4096x3_S16x3x4096_0_2_1 : S16x4096x3.Transposes [0, 2, 1] S16x3x4096
  reducesTo_S16x4096x3_S16x4096_d2 : S16x4096x3.ReducesTo [2] S16x4096
  h_S_ : 0 < S_.numel
  bcast_S16x4096_S16x1x4096_0_2 : S16x4096.BroadcastsInDim S16x1x4096 (![0, 2] : Fin 2 → Fin S16x1x4096.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S2048x3_S2048 : S2048x3.Reduces [1] S2048
  shapeCasts_S2048_S2048x1 : S2048.ShapeCasts S2048x1
  broadcasts_S2048x1_S2048x1024 : S2048x1.Broadcasts S2048x1024
  broadcasts_S1x1024_S2048x1024 : S1x1024.Broadcasts S2048x1024
  reduces_S2048x1024_S2048 : S2048x1024.Reduces [1] S2048
  reduces_S2048x1024_S1024 : S2048x1024.Reduces [0] S1024
  shapeCasts_S1024_S1x1024 : S1024.ShapeCasts S1x1024
  h_S1x1024 : 0 < S1x1024.numel
  shapeCasts_S1x1024_S1x1024 : S1x1024.ShapeCasts S1x1024
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S16x4096x1_S16x4096 : S16x4096x1.ShapeCasts S16x4096
  shapeCasts_S16x1x4096_S16x4096 : S16x1x4096.ShapeCasts S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S2048x3_S3x1024_S2048x1024_1_0_0_1_n_n_wf : DotDims.WF S2048x3 S3x1024 S2048x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S16x4096x3.size a
  hwx0_0 : ∀ i : grid0.Coords, EltTy.bits .f32 = 32 ∨ (Rect.block (s := S16x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S16x3x4096.size a
  hwx0_1 : ∀ i : grid0.Coords, EltTy.bits .f32 = 32 ∨ (Rect.block (s := S16x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S16x4096x1.size a
  hwx0_3 : ∀ i : grid0.Coords, EltTy.bits .f32 = 32 ∨ (Rect.block (s := S16x4096x1) S1x2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S16x1x4096.size a
  hwx0_4 : ∀ i : grid0.Coords, EltTy.bits .f32 = 32 ∨ (Rect.block (s := S16x1x4096) S1x1x4096.size (cc0_transform_4 i) (hinb0_4 i)).WholeWords (EltTy.packing .f32)

variable [Facts₀]

def dot_S2048x3_S3x1024_S2048x1024_1_0_0_1_n_n : DotDims S2048x3 S3x1024 S2048x1024 where
  lhsContracting := [1]
  rhsContracting := [0]
  lhsNonContracting := [0]
  rhsNonContracting := [1]
  lhsBatch := []
  rhsBatch := []
  wf := dot_S2048x3_S3x1024_S2048x1024_1_0_0_1_n_n_wf

abbrev win0_0 : Pipeline.Window sig grid0 :=
  Pipeline.Window.ofSpec (Memref.whole main_v5) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1x2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x1x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) | 4 => fun i => !(k0_cond4 i == 1#1) | ⟨_ + 5, h⟩ => absurd h (Nat.not_lt.2 (Nat.le_add_left _ _))

class Facts : Prop extends Facts₀ where

variable [Facts]
-- ==== ReferenceIdeal.lean ====
abbrev S65536x3 : Shape := ⟨2, ![65536, 3]⟩
abbrev S65536 : Shape := ⟨1, ![65536]⟩
abbrev S65536x5 : Shape := ⟨2, ![65536, 5]⟩
abbrev S_ : Shape := ⟨0, ![]⟩
abbrev S16x4096x3 : Shape := ⟨3, ![16, 4096, 3]⟩
abbrev S16x4096 : Shape := ⟨2, ![16, 4096]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S16x3x4096 : Shape := ⟨3, ![16, 3, 4096]⟩
abbrev S16 : Shape := ⟨1, ![16]⟩

abbrev nBuf : Space → Nat
  | .hbm => 48
  | .vmem => 0
  | .smem => 0
  | _ => 0

abbrev bufTy : (tb : Table) → Fin (tcTables nBuf tb) → BufTy
  | .hbm, ⟨0, _⟩ => ⟨S65536x3, .f32⟩
  | .hbm, ⟨1, _⟩ => ⟨S65536, .i32⟩
  | .hbm, ⟨2, _⟩ => ⟨S65536x5, .f32⟩
  | .hbm, ⟨3, _⟩ => ⟨S65536x3, .f32⟩
  | .hbm, ⟨4, _⟩ => ⟨S_, .f32⟩
  | .hbm, ⟨5, _⟩ => ⟨S65536x3, .f32⟩
  | .hbm, ⟨6, _⟩ => ⟨S65536x3, .f32⟩
  | .hbm, ⟨7, _⟩ => ⟨S_, .f32⟩
  | .hbm, ⟨8, _⟩ => ⟨S65536x3, .f32⟩
  | .hbm, ⟨9, _⟩ => ⟨S65536x3, .f32⟩
  | .hbm, ⟨10, _⟩ => ⟨S16x4096x3, .f32⟩
  | .hbm, ⟨11, _⟩ => ⟨S16x4096x3, .f32⟩
  | .hbm, ⟨12, _⟩ => ⟨S16x4096x3, .f32⟩
  | .hbm, ⟨13, _⟩ => ⟨S_, .f32⟩
  | .hbm, ⟨14, _⟩ => ⟨S16x4096, .f32⟩
  | .hbm, ⟨15, _⟩ => ⟨S16x4096x3, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x1x4096, .f32⟩
  | .hbm, ⟨20, _⟩ => ⟨S16x4096x4096, .f32⟩
  | .hbm, ⟨21, _⟩ => ⟨S16x4096x4096, .f32⟩
  | .hbm, ⟨22, _⟩ => ⟨S16x4096x4096, .f32⟩
  | .hbm, ⟨23, _⟩ => ⟨S16x3x4096, .f32⟩
  | .hbm, ⟨24, _⟩ => ⟨S16x4096x4096, .f32⟩
  | .hbm, ⟨25, _⟩ => ⟨S_, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S_, .f32⟩
  | .hbm, ⟨30, _⟩ => ⟨S16x4096, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16x4096, .f32⟩
  | .hbm, ⟨38, _⟩ => ⟨S_, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  slices_S65536x5_S65536x3_0_1 : S65536x5.Slices ![0, 1] S65536x3
  bcast_S_S65536x3 : S_.BroadcastsInDim S65536x3 (![] : Fin 0 → Fin S65536x3.rank)
  shapeCasts_S65536x3_S16x4096x3 : S65536x3.ShapeCasts S16x4096x3
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  transposes_S16x4096x3_S16x3x4096_0_2_1 : S16x4096x3.Transposes [0, 2, 1] S16x3x4096
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16x4096x4096_S16x4096_d1 : S16x4096x4096.ReducesTo [1] S16x4096
  reducesTo_S16_S_d0 : S16.ReducesTo [0] S_
  dot_S16x4096x3_S16x3x4096_S16x4096x4096_2_1_1_2_0_0_wf : DotDims.WF S16x4096x3 S16x3x4096 S16x4096x4096 [2] [1] [1] [2] [0] [0]

variable [Facts₀]

def dot_S16x4096x3_S16x3x4096_S16x4096x4096_2_1_1_2_0_0 : DotDims S16x4096x3 S16x3x4096 S16x4096x4096 where
  lhsContracting := [2]
  rhsContracting := [1]
  lhsNonContracting := [1]
  rhsNonContracting := [2]
  lhsBatch := [0]
  rhsBatch := [0]
  wf := dot_S16x4096x3_S16x3x4096_S16x4096x4096_2_1_1_2_0_0_wf

class Facts : Prop extends Facts₀ where

variable [Facts]
-- ==== Proof.ChamferSpec.lean ====
/-
  The squared-distance matrix of two point clouds and its row and column minima, as functions of the three
  arrays the kernel's region reads: the points x (16 clouds of 4096 points, 3 coordinates), the transposed
  targets yᵀ, and the targets' squared norms y².

    dist(b, p, q) = (Σₖ x(b,p,k)² + y²(b,q)) − 2 · Σₖ x(b,p,k) · yᵀ(b,k,q)

  The kernel walks each cloud in 2 row tiles of 2048 points by 4 column tiles of 1024 targets, keeping a running
  minimum per row (reset at the first column tile of a row tile) and a running minimum per column (reset at the
  first tile of a cloud, updated 1024 columns at a time).  After position n = 8b + 4i + j of the walk
    the row accumulator at local row r is the infimum of dist(b, 2048 i + r, q) over the columns q < 1024 (j + 1);
    the column accumulator at column q is the infimum of dist(b, p, q) over the rows of the tiles already met in
    that column: p < 2048 i always, and p < 2048 (i + 1) once q's tile has been reached (q / 1024 ≤ j).
  This file states those closed forms and proves the step from one position to the next.  Only the order
  structure of the extended reals is used: a minimum of infima is the infimum over the union.
-/
import Idealize.ShloMosaic.PureOps.Ideal
import Idealize.ShloMosaic.Lib.ValueIdx

noncomputable section

namespace Chamfer

open Idealize.ShloMosaic Idealize.ShloMosaic.ValueIdx
open scoped BigOperators

/-! ## The infimum over the indices a condition selects -/

/-- The infimum of f over the indices satisfying P. -/
def infOn {n : ℕ} (P : Fin n → Prop) [DecidablePred P] (f : Fin n → EReal) : EReal :=
  (Finset.univ.filter P).inf f

/-- Its universal property. -/
theorem le_infOn_iff {n : ℕ} (P : Fin n → Prop) [DecidablePred P] (f : Fin n → EReal) (z : EReal) :
    z ≤ infOn P f ↔ ∀ k, P k → z ≤ f k := by
  unfold infOn
  rw [Finset.le_inf_iff]
  exact ⟨fun h k hk => h k (Finset.mem_filter.mpr ⟨Finset.mem_univ _, hk⟩),
    fun h k hk => h k (Finset.mem_filter.mp hk).2⟩

/-- The universal property of an infimum over every index. -/
theorem le_inf_univ_iff {n : ℕ} (f : Fin n → EReal) (z : EReal) :
    z ≤ (Finset.univ : Finset (Fin n)).inf f ↔ ∀ k, z ≤ f k := by
  rw [Finset.le_inf_iff]
  exact ⟨fun h k => h k (Finset.mem_univ _), fun h k _ => h k⟩

/-- Equal conditions and equal values where the condition holds give equal infima. -/
theorem infOn_congr {n : ℕ} (P Q : Fin n → Prop) [DecidablePred P] [DecidablePred Q] (f g : Fin n → EReal)
    (hPQ : ∀ k, P k ↔ Q k) (hfg : ∀ k, P k → f k = g k) : infOn P f = infOn Q g := by
  apply eq_of_forall_le_iff
  intro z
  rw [le_infOn_iff, le_infOn_iff]
  constructor
  · intro h k hk
    rw [← hfg k ((hPQ k).mpr hk)]
    exact h k ((hPQ k).mpr hk)
  · intro h k hk
    rw [hfg k hk]
    exact h k ((hPQ k).mp hk)

/-- A condition every index meets selects the whole family. -/
theorem infOn_of_forall {n : ℕ} (P : Fin n → Prop) [DecidablePred P] (f : Fin n → EReal) (h : ∀ k, P k) :
    infOn P f = (Finset.univ : Finset (Fin n)).inf f := by
  apply eq_of_forall_le_iff
  intro z
  rw [le_infOn_iff, le_inf_univ_iff]
  exact ⟨fun hz k => hz k (h k), fun hz k _ => hz k⟩

/-- A condition no index meets leaves the top. -/
theorem infOn_of_forall_not {n : ℕ} (P : Fin n → Prop) [DecidablePred P] (f : Fin n → EReal) (h : ∀ k, ¬P k) :
    infOn P f = ⊤ := by
  apply eq_of_forall_le_iff
  intro z
  rw [le_infOn_iff]
  exact ⟨fun _ => le_top, fun _ k hk => absurd hk (h k)⟩

/-! ## The distance -/

/-- The points: 16 clouds of 4096 points, 3 coordinates. -/
abbrev SX : Shape := ⟨3, ![16, 4096, 3]⟩
/-- The transposed targets. -/
abbrev SYt : Shape := ⟨3, ![16, 3, 4096]⟩
/-- The targets' squared norms, with a kept unit axis. -/
abbrev SY2 : Shape := ⟨3, ![16, 1, 4096]⟩

/-- The factor two of the cross term, as the programs spell it. -/
def two : EReal := Ideal.ofBits .f32 0x40000000#32

variable (X : SX.Idx → EReal) (Yt : SYt.Idx → EReal) (Y2 : SY2.Idx → EReal)

/-- The squared distance between point p and target q of cloud b, expanded. -/
def dist (b : Fin 16) (p q : Fin 4096) : EReal :=
  ((∑ k : Fin 3, X (ix3 b p k) * X (ix3 b p k)) + Y2 (ix3 b (0 : Fin 1) q))
    - two * ∑ k : Fin 3, X (ix3 b p k) * Yt (ix3 b k q)

/-- The same over natural coordinates (the top outside the arrays, where it is never read). -/
def distN (b p q : ℕ) : EReal :=
  if h : b < 16 ∧ p < 4096 ∧ q < 4096 then dist X Yt Y2 ⟨b, h.1⟩ ⟨p, h.2.1⟩ ⟨q, h.2.2⟩ else ⊤

theorem distN_eq (b : Fin 16) (p q : Fin 4096) : distN X Yt Y2 b.val p.val q.val = dist X Yt Y2 b p q :=
  dif_pos ⟨b.isLt, p.isLt, q.isLt⟩

theorem distN_of_lt {b p q : ℕ} (hb : b < 16) (hp : p < 4096) (hq : q < 4096) :
    distN X Yt Y2 b p q = dist X Yt Y2 ⟨b, hb⟩ ⟨p, hp⟩ ⟨q, hq⟩ :=
  dif_pos ⟨hb, hp, hq⟩

/-- Row p of cloud b: the nearest target. -/
def rowMin (b : Fin 16) (p : Fin 4096) : EReal := (Finset.univ : Finset (Fin 4096)).inf fun q => dist X Yt Y2 b p q
/-- Column q of cloud b: the nearest point. -/
def colMin (b : Fin 16) (q : Fin 4096) : EReal := (Finset.univ : Finset (Fin 4096)).inf fun p => dist X Yt Y2 b p q

/-! ## The walk: position n = 8 b + 4 i + j -/

/-- The row accumulator after position n, at local row r. -/
def rowAcc (n : ℕ) (r : Fin 2048) : EReal :=
  infOn (fun q : Fin 4096 => q.val < 1024 * (n % 4 + 1)) fun q => distN X Yt Y2 (n / 8) (2048 * (n / 4 % 2) + r.val) q.val

/-- The column accumulator after position n, at column q. -/
def colAcc (n : ℕ) (q : Fin 4096) : EReal :=
  infOn (fun p : Fin 4096 => p.val < 2048 * (n / 4 % 2) ∨ (q.val / 1024 ≤ n % 4 ∧ p.val < 2048 * (n / 4 % 2 + 1)))
    fun p => distN X Yt Y2 (n / 8) p.val q.val

/-- The tile met at position n: its minimum along the columns, at local row r. -/
def tileRow (n : ℕ) (r : Fin 2048) : EReal :=
  (Finset.univ : Finset (Fin 1024)).inf fun s => distN X Yt Y2 (n / 8) (2048 * (n / 4 % 2) + r.val) (1024 * (n % 4) + s.val)

/-- Its minimum along the rows, at local column s. -/
def tileCol (n : ℕ) (s : Fin 1024) : EReal :=
  (Finset.univ : Finset (Fin 2048)).inf fun r => distN X Yt Y2 (n / 8) (2048 * (n / 4 % 2) + r.val) (1024 * (n % 4) + s.val)

/-- At the first column tile of a row tile the row accumulator restarts: it is that tile's row minimum. -/
theorem rowAcc_first (n : ℕ) (h : n % 4 = 0) (r : Fin 2048) :
    min (⊤ : EReal) ((⊤ : EReal) ⊓ tileRow X Yt Y2 n r) = rowAcc X Yt Y2 n r := by
  rw [top_inf_eq, min_eq_right le_top]
  apply eq_of_forall_le_iff
  intro z
  unfold tileRow rowAcc
  rw [le_inf_univ_iff, le_infOn_iff]
  constructor
  · intro hz q hq
    have hq' : q.val < 1024 := by omega
    have := hz ⟨q.val, hq'⟩
    rwa [h, Nat.mul_zero, Nat.zero_add] at this
  · intro hz s
    have hs := s.isLt
    exact hz ⟨1024 * (n % 4) + s.val, by omega⟩ (by show 1024 * (n % 4) + s.val < _; omega)

/-- At a later column tile it takes in that tile's row minimum. -/
theorem rowAcc_step (n : ℕ) (h : n % 4 ≠ 0) (r : Fin 2048) :
    min (rowAcc X Yt Y2 (n - 1) r) ((⊤ : EReal) ⊓ tileRow X Yt Y2 n r) = rowAcc X Yt Y2 n r := by
  rw [top_inf_eq]
  have e1 : (n - 1) / 8 = n / 8 := by omega
  have e2 : (n - 1) / 4 % 2 = n / 4 % 2 := by omega
  have e3 : (n - 1) % 4 + 1 = n % 4 := by omega
  apply eq_of_forall_le_iff
  intro z
  unfold tileRow rowAcc
  rw [le_min_iff, le_inf_univ_iff, le_infOn_iff, le_infOn_iff, e1, e2, e3]
  constructor
  · rintro ⟨h1, h2⟩ q hq
    by_cases hlt : q.val < 1024 * (n % 4)
    · exact h1 q hlt
    · have hs : q.val - 1024 * (n % 4) < 1024 := by omega
      have := h2 ⟨q.val - 1024 * (n % 4), hs⟩
      have e : 1024 * (n % 4) + (q.val - 1024 * (n % 4)) = q.val := by omega
      rwa [show ((⟨q.val - 1024 * (n % 4), hs⟩ : Fin 1024)).val = q.val - 1024 * (n % 4) from rfl, e] at this
  · intro hz
    refine ⟨fun q hq => hz q (by omega), fun s => ?_⟩
    have hs := s.isLt
    exact hz ⟨1024 * (n % 4) + s.val, by omega⟩ (by show 1024 * (n % 4) + s.val < _; omega)

/-- After the last column tile the row accumulator is the row's minimum over every target. -/
theorem rowAcc_last (n : ℕ) (hn : n < 128) (h : n % 4 = 3) (r : Fin 2048) :
    rowAcc X Yt Y2 n r = rowMin X Yt Y2 ⟨n / 8, by omega⟩ ⟨2048 * (n / 4 % 2) + r.val, by have := r.isLt; omega⟩ := by
  unfold rowAcc rowMin
  rw [infOn_of_forall _ _ (fun q => by have := q.isLt; omega)]
  exact Finset.inf_congr rfl fun q _ => distN_of_lt X Yt Y2 _ _ q.isLt

/-- At the first tile of a cloud the column accumulator restarts: the met tile's column minimum on that tile's
    columns, -/
theorem colAcc_first_hit (n : ℕ) (h : n % 8 = 0) (q : Fin 4096) (hq : q.val < 1024) :
    min (⊤ : EReal) ((⊤ : EReal) ⊓ tileCol X Yt Y2 n ⟨q.val, hq⟩) = colAcc X Yt Y2 n q := by
  rw [top_inf_eq, min_eq_right le_top]
  have e2 : n / 4 % 2 = 0 := by omega
  have e3 : n % 4 = 0 := by omega
  apply eq_of_forall_le_iff
  intro z
  unfold tileCol colAcc
  rw [le_inf_univ_iff, le_infOn_iff, e2, e3]
  constructor
  · intro hz p hp
    have hp' : p.val < 2048 := by omega
    have := hz ⟨p.val, hp'⟩
    simpa using this
  · intro hz r
    have hr := r.isLt
    have := hz ⟨r.val, by omega⟩ (Or.inr ⟨by omega, by show r.val < _; omega⟩)
    simpa using this

/-- the top elsewhere. -/
theorem colAcc_first_miss (n : ℕ) (h : n % 8 = 0) (q : Fin 4096) (hq : ¬q.val < 1024) :
    (⊤ : EReal) = colAcc X Yt Y2 n q := by
  unfold colAcc
  rw [infOn_of_forall_not]
  intro p hp
  have := p.isLt
  omega

/-- At a later tile of the cloud it takes in the met tile's column minimum on that tile's columns, -/
theorem colAcc_step_hit (n : ℕ) (h : n % 8 ≠ 0) (q : Fin 4096) (hq : q.val / 1024 = n % 4) :
    min (colAcc X Yt Y2 (n - 1) q) ((⊤ : EReal) ⊓ tileCol X Yt Y2 n ⟨q.val - 1024 * (n % 4), by have := q.isLt; omega⟩)
      = colAcc X Yt Y2 n q := by
  rw [top_inf_eq]
  have e1 : (n - 1) / 8 = n / 8 := by omega
  have hqlt := q.isLt
  apply eq_of_forall_le_iff
  intro z
  unfold tileCol colAcc
  rw [le_min_iff, le_inf_univ_iff, le_infOn_iff, le_infOn_iff, e1]
  have eq : 1024 * (n % 4) + (q.val - 1024 * (n % 4)) = q.val := by omega
  simp only [eq]
  constructor
  · rintro ⟨h1, h2⟩ p hp
    by_cases hlt : p.val < 2048 * (n / 4 % 2)
    · exact h1 p (by omega)
    · have hs : p.val - 2048 * (n / 4 % 2) < 2048 := by omega
      have := h2 ⟨p.val - 2048 * (n / 4 % 2), hs⟩
      have e : 2048 * (n / 4 % 2) + (p.val - 2048 * (n / 4 % 2)) = p.val := by omega
      rwa [show ((⟨p.val - 2048 * (n / 4 % 2), hs⟩ : Fin 2048)).val = p.val - 2048 * (n / 4 % 2) from rfl, e] at this
  · intro hz
    refine ⟨fun p hp => hz p (by omega), fun r => ?_⟩
    have hr := r.isLt
    exact hz ⟨2048 * (n / 4 % 2) + r.val, by omega⟩ (Or.inr ⟨by omega, by show 2048 * (n / 4 % 2) + r.val < _; omega⟩)

/-- and keeps the other columns. -/
theorem colAcc_step_miss (n : ℕ) (h : n % 8 ≠ 0) (q : Fin 4096) (hq : q.val / 1024 ≠ n % 4) :
    colAcc X Yt Y2 (n - 1) q = colAcc X Yt Y2 n q := by
  have e1 : (n - 1) / 8 = n / 8 := by omega
  unfold colAcc
  rw [e1]
  exact infOn_congr _ _ _ _ (fun p => by have := p.isLt; have := q.isLt; omega) fun _ _ => rfl

/-- After the last tile of a cloud the column accumulator is the column's minimum over every point. -/
theorem colAcc_last (n : ℕ) (hn : n < 128) (h : n % 8 = 7) (q : Fin 4096) :
    colAcc X Yt Y2 n q = colMin X Yt Y2 ⟨n / 8, by omega⟩ q := by
  unfold colAcc colMin
  rw [infOn_of_forall _ _ (fun p => by have := p.isLt; have := q.isLt; omega)]
  exact Finset.inf_congr rfl fun p _ => distN_of_lt X Yt Y2 _ p.isLt q.isLt

end Chamfer

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.LibRunningMin.lean ====
/-
  Minima of a matrix, and a minimum kept running over tiles, at the extended reals.

  A `vector.multi_reduction <minimumf>` of an [a, b] matrix along its second axis is, at row i, the accumulator's value met with
  the infimum of the row; along its first axis, at column k, met with the infimum of the column. A minimum updated tile after
  tile — m₀ = f 0, m_{n+1} = min(m_n, f (n+1)) — is after n+1 tiles the infimum of f over `Fin (n+1)`.
-/
import proofs.«157774_j4698694221980_2_alg».proof.Proof.LibMinMaxInf
import Idealize.ShloMosaic.Lib.ValueIdx

noncomputable section

namespace Cert.Lib.RunningMin

open Idealize.ShloMosaic Idealize.ShloMosaic.ValueIdx Cert.Lib.MinMaxInf

/-- The minimum of an `[a, b]` matrix along its second axis, at row `i`: the accumulator met with the row's infimum. -/
theorem rowMin_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.minimumf.neutral φ hφ) (i : Fin a) :
    multiReduction .minimumf [(1 : Fin 2)] ⟨1, ![a]⟩ src acc h hφ hacc (ix1 i)
      = (Ideal.ofBits φ acc ⊓ (Finset.univ : Finset (Fin b)).inf fun k => src (ix2 i k) : EReal) :=
  (multiReduction_minimumf_single src acc h hφ hacc (ix1 i)).trans
    (congrArg (Ideal.ofBits φ acc ⊓ ·) (Finset.inf_congr rfl fun k _ => congrArg src (funext fun c => Fin.ext (by
      match c with
      | ⟨0, _⟩ => rfl
      | ⟨1, _⟩ => rfl))))

/-- The minimum of an `[a, b]` matrix along its first axis, at column `k`: the accumulator met with the column's infimum. -/
theorem colMin_apply {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.minimumf.neutral φ hφ) (k : Fin b) :
    multiReduction .minimumf [(0 : Fin 2)] ⟨1, ![b]⟩ src acc h hφ hacc (ix1 k)
      = (Ideal.ofBits φ acc ⊓ (Finset.univ : Finset (Fin a)).inf fun r => src (ix2 r k) : EReal) :=
  (multiReduction_minimumf_single src acc h hφ hacc (ix1 k)).trans
    (congrArg (Ideal.ofBits φ acc ⊓ ·) (Finset.inf_congr rfl fun r _ => congrArg src (funext fun c => Fin.ext (by
      match c with
      | ⟨0, _⟩ => rfl
      | ⟨1, _⟩ => rfl))))

/-- A minimum kept running: the first tile's value, then `min` with each later tile's. -/
def runMin (f : ℕ → EReal) : ℕ → EReal
  | 0 => f 0
  | n + 1 => min (runMin f n) (f (n + 1))

/-- After tile `n` the running minimum is the infimum over the tiles `0 … n`. -/
theorem runMin_eq_inf_range (f : ℕ → EReal) (n : ℕ) : runMin f n = (Finset.range (n + 1)).inf f := by
  induction n with
  | zero => simp [runMin]
  | succ n ih =>
    rw [runMin, ih, Finset.range_add_one (n := n + 1), Finset.inf_insert]
    exact inf_comm _ _

/-- The naturals below `n` are the values of `Fin n`. -/
theorem map_val_univ (n : ℕ) : (Finset.univ : Finset (Fin n)).map Fin.valEmbedding = Finset.range n := by
  ext i
  constructor
  · intro h
    obtain ⟨a, -, rfl⟩ := Finset.mem_map.mp h
    exact Finset.mem_range.mpr a.isLt
  · intro h
    exact Finset.mem_map.mpr ⟨⟨i, Finset.mem_range.mp h⟩, Finset.mem_univ _, rfl⟩

/-- So a running minimum whose tile values come from a family over `Fin (n + 1)` ends at that family's infimum. -/
theorem runMin_eq_inf_univ {n : ℕ} (g : Fin (n + 1) → EReal) (f : ℕ → EReal) (hf : ∀ j : Fin (n + 1), f j.val = g j) :
    runMin f n = (Finset.univ : Finset (Fin (n + 1))).inf g := by
  rw [runMin_eq_inf_range, ← map_val_univ, Finset.inf_map]
  exact Finset.inf_congr rfl fun j _ => hf j

end Cert.Lib.RunningMin

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.ChamferTile.lean ====
/-
  One tile of the walk, read at an index at the extended reals.

  The body computes, from the blocks x0 (2048 points, 3 coordinates), x1 (3 by 1024 transposed targets) and
  x2 (1024 squared norms) of one grid point, the 2048 by 1024 tile of distances
      tile(r, s) = (Σₖ x0(r,k)² + x2(s)) − 2 · Σₖ x0(r,k) · x1(k,s),
  its minimum along each row met with the row accumulator, and its minimum along each column met with the
  slice of the column accumulator.  A lane sum is a finite sum, a product into a zero accumulator is a finite
  sum of products, a minimum reduction from +inf is an infimum; the casts and broadcasts only re-index.
-/
import proofs.«157774_j4698694221980_2_alg».proof.Proof.Gen.KernelIdeal.Skeleton
import proofs.«157774_j4698694221980_2_alg».proof.Proof.ChamferSpec
import proofs.«157774_j4698694221980_2_alg».proof.Proof.LibKeepdims
import proofs.«157774_j4698694221980_2_alg».proof.Proof.LibRunningMin
import proofs.«157774_j4698694221980_2_alg».proof.Proof.LibDense
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open Cert.Lib.Keepdims Cert.Lib.RunningMin Cert.Lib.MinMaxInf
open scoped BigOperators

variable [Cert.KernelIdeal.Facts]

variable (x0 : Vec Ideal S1x2048x3 .f32) (x1 : Vec Ideal S1x3x1024 .f32) (x2 : Vec Ideal S1x1x1024 .f32)

/-- The tile of distances of one grid point, from its three blocks. -/
def tile (r : Fin 2048) (s : Fin 1024) : EReal :=
  ((∑ k : Fin 3, x0 (ix3 (0 : Fin 1) r k) * x0 (ix3 (0 : Fin 1) r k)) + x2 (ix3 (0 : Fin 1) (0 : Fin 1) s))
    - Chamfer.two * ∑ k : Fin 3, x0 (ix3 (0 : Fin 1) r k) * x1 (ix3 (0 : Fin 1) k s)

/-- The body's distance tile at (r, s). -/
theorem pay7_apply (r : Fin 2048) (s : Fin 1024) :
    k0_pay7 (F := Ideal) x0 x1 x2 (ix2 r s) = tile x0 x1 x2 r s := by
  unfold k0_pay7 tile
  try dsimp only
  rw [subf_apply, addf_apply, mulf_apply]
  refine congrArg₂ (· - ·) (congrArg₂ (· + ·) ?_ ?_) (congrArg₂ (· * ·) rfl ?_)
  · refine (broadcastTo_a1_ab_apply _ _ r s).trans ((shapeCast_a_a1_apply _ _ r (0 : Fin 1)).trans
      ((rowSum_apply _ _ _ _ _ r).trans (Finset.sum_congr rfl fun k _ => ?_)))
    rw [mulf_apply]
    exact congrArg₂ (· * ·) (shapeCast_1ab_ab_apply x0 _ r k) (shapeCast_1ab_ab_apply x0 _ r k)
  · exact (broadcastTo_1b_ab_apply _ _ r s).trans (shapeCast_1ab_ab_apply x2 _ (0 : Fin 1) s)
  · refine (Ideal.matmul_constant_zero_apply dot_S2048x3_S3x1024_S2048x1024_1_0_0_1_n_n _ _ _ (ix2 r s)).trans
      ((Cert.Lib.Dense.plain_sum dot_S2048x3_S3x1024_S2048x1024_1_0_0_1_n_n rfl rfl rfl rfl rfl rfl _ _ r s).trans
        (Finset.sum_congr rfl fun k _ => ?_))
    exact congrArg₂ (· * ·) (shapeCast_1ab_ab_apply x0 _ r k) (shapeCast_1ab_ab_apply x1 _ k s)

/-- The row accumulator's new value at row r: the old one met with the tile's row minimum. -/
theorem pay9_apply (v28 : Vec Ideal S2048x1 .f32) (r : Fin 2048) (u : Fin 1) :
    k0_pay9 (F := Ideal) x0 x1 x2 v28 (ix2 r u)
      = min (v28 (ix2 r u)) ((⊤ : EReal) ⊓ (Finset.univ : Finset (Fin 1024)).inf fun s => tile x0 x1 x2 r s) := by
  unfold k0_pay9
  try dsimp only
  rw [minimumf_apply]
  refine congrArg (min (v28 (ix2 r u))) ?_
  refine (shapeCast_a_a1_apply _ _ r u).trans ((rowMin_apply _ _ _ _ _ r).trans ?_)
  rw [ofBits_posInf_f32]
  exact congrArg ((⊤ : EReal) ⊓ ·) (Finset.inf_congr rfl fun s _ => pay7_apply x0 x1 x2 r s)

/-- The tile's column minimum at column s. -/
theorem pay8_apply (u : Fin 1) (s : Fin 1024) :
    k0_pay8 (F := Ideal) x0 x1 x2 (ix2 u s)
      = ((⊤ : EReal) ⊓ (Finset.univ : Finset (Fin 2048)).inf fun r => tile x0 x1 x2 r s) := by
  unfold k0_pay8
  try dsimp only
  refine (shapeCast_a_1a_apply _ _ u s).trans ((colMin_apply _ _ _ _ _ s).trans ?_)
  rw [ofBits_posInf_f32]
  exact congrArg ((⊤ : EReal) ⊓ ·) (Finset.inf_congr rfl fun r _ => pay7_apply x0 x1 x2 r s)

/-- The column accumulator's new slice: the old slice met with the tile's column minima. -/
theorem pay2_apply (v27 : FVec Ideal S1x1024 .f32) (v36 : Vec Ideal S1x1024 .f32) (j : S1x1024.Idx) :
    k0_pay2 (F := Ideal) v27 v36 j = min (v36 j) (v27 j) := by
  unfold k0_pay2
  try dsimp only
  rw [shapeCast_self]
  rfl

/-- The store into the row accumulator writes the value as it is. -/
theorem pay1_eq (v29 : FVec Ideal S2048x1 .f32) : k0_pay1 (F := Ideal) v29 = v29 := by
  unfold k0_pay1
  try dsimp only
  rw [shapeCast_self]

/-- The row output block is the row accumulator with a leading unit axis. -/
theorem pay3_apply (v50 : Vec Ideal S2048x1 .f32) (u : Fin 1) (r : Fin 2048) (w : Fin 1) :
    k0_pay3 (F := Ideal) v50 (ix3 u r w) = v50 (ix2 r w) := by
  unfold k0_pay3
  try dsimp only
  exact shapeCast_ab_1ab_apply v50 _ u r w

/-- The column output block is the column accumulator with a leading unit axis. -/
theorem pay4_apply (v50 : Vec Ideal S1x4096 .f32) (u w : Fin 1) (q : Fin 4096) :
    k0_pay4 (F := Ideal) v50 (ix3 u w q) = v50 (ix2 w q) := by
  unfold k0_pay4
  try dsimp only
  exact shapeCast_ab_1ab_apply v50 _ u w q

/-- The row accumulator restarts at +inf. -/
theorem pay5_apply (j : S2048x1.Idx) : k0_pay5 (F := Ideal) j = (⊤ : EReal) := by
  unfold k0_pay5
  try dsimp only
  rw [shapeCast_self]
  exact ofBits_posInf_f32

/-- The column accumulator restarts at +inf. -/
theorem pay6_apply (j : S1x4096.Idx) : k0_pay6 (F := Ideal) j = (⊤ : EReal) := by
  unfold k0_pay6
  try dsimp only
  rw [shapeCast_self]
  exact ofBits_posInf_f32

/-- When the three blocks are the blocks of the whole arrays at cloud B, rows P, columns Q, the tile is the
    distance matrix there. -/
theorem tile_eq_dist (X : Chamfer.SX.Idx → EReal) (Yt : Chamfer.SYt.Idx → EReal) (Y2 : Chamfer.SY2.Idx → EReal)
    (B : Fin 16) (P : Fin 2048 → Fin 4096) (Q : Fin 1024 → Fin 4096)
    (h0 : ∀ r k, x0 (ix3 (0 : Fin 1) r k) = X (ix3 B (P r) k))
    (h1 : ∀ k s, x1 (ix3 (0 : Fin 1) k s) = Yt (ix3 B k (Q s)))
    (h2 : ∀ s, x2 (ix3 (0 : Fin 1) (0 : Fin 1) s) = Y2 (ix3 B (0 : Fin 1) (Q s)))
    (r : Fin 2048) (s : Fin 1024) : tile x0 x1 x2 r s = Chamfer.dist X Yt Y2 B (P r) (Q s) := by
  unfold tile Chamfer.dist
  simp only [h0, h1, h2]

end Cert.KernelIdeal.Tile

end
-- ==== Proof.ChamferStore.lean ====
/-
  What the column accumulator holds after the body's store into it.

  The body updates 1024 consecutive columns of the 4096-column accumulator: it loads the slice starting at
  column o, takes the minimum with the tile's column minima, and stores the slice back.  Read at a column, the
  buffer then holds the minimum inside the slice and the old value outside it.  At the first tile of a cloud
  the whole buffer is first filled with +inf, so the old value is +inf everywhere.
-/
import proofs.«157774_j4698694221980_2_alg».proof.Proof.ChamferTile
import Idealize.ShloMosaic.Lib.WritesUnit
import Idealize.ShloMosaic.Lib.Pipeline.FrameBody
import Idealize.ShloMosaic.Lib.Pipeline.Frame
import Idealize.ShloMosaic.Lib.Pipeline.Value

noncomputable section

namespace Cert.KernelIdeal.Store

open Cert.KernelIdeal Cert.KernelIdeal.Gen Idealize.ShloMosaic Idealize.ShloMosaic.ValueIdx

variable [Cert.KernelIdeal.Facts]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after the update of the slice starting at column o: inside the slice the old value met
    with the tile's column minimum, outside it the old value. -/
def colStep (old : S1x4096.Idx → EReal) (v27 : S1x1024.Idx → EReal) (o : ℕ) (y : S1x4096.Idx) : EReal :=
  if h : o ≤ (y 1).val ∧ (y 1).val < o + 1024 then
    min (old y) (v27 (ix2 (0 : Fin 1) (⟨(y 1).val - o, by omega⟩ : Fin 1024)))
  else old y

/-- One store through the whole buffer leaves its payload, whatever was there. -/
theorem read_whole_store {sig : RefSig} {κ : Kind} {sp : Space} {S : Shape} {e : EltTy}
    (V : View sig κ sp S e) (f : V.ty.Contents (Elt Ideal)) {off : Fin S.rank → Nat} (h : off = fun _ => 0)
    (inb : ∀ a, off a + S.size a ≤ S.size a) (w : S.Idx → Elt Ideal e) :
    V.read (Elt Ideal) (V.writes (Elt Ideal) f [(⟨Rect.unit off S.size inb, w⟩ : View.Piece (Elt Ideal) S e)]) = w :=
  (View.read_writes_eq_canon V f _ (fun y => ⟨_, List.mem_singleton_self _, View.mem_set_unit_zero h inb y⟩)).trans
    (View.canon_unit_zero h inb w)

/-- The slice at columns [o, o + 1024) of a row vector, read at local column s, is the vector at o + s. -/
theorem ld_slice_apply (X : Vec Ideal S1x4096 .f32) (off : Fin 2 → ℕ)
    (inb : ∀ a, off a + (![1, 1024] : Fin 2 → ℕ) a ≤ S1x4096.size a) (o : ℕ) (hoff : off = ![0, o])
    (y : S1x4096.Idx) (h : o ≤ (y 1).val ∧ (y 1).val < o + 1024) :
    View.ld (Val := Elt Ideal) X (Rect.unit off ![1, 1024] inb) (ix2 (0 : Fin 1) (⟨(y 1).val - o, by omega⟩ : Fin 1024)) = X y := by
  subst hoff
  show X _ = X y
  refine congrArg X (funext fun a => Fin.ext ?_)
  match a with
  | ⟨0, _⟩ =>
    show 0 + 1 * 0 = (y 0).val
    have := idx2_lt0 y
    omega
  | ⟨1, _⟩ =>
    show o + 1 * ((y 1).val - o) = (y 1).val
    omega

/-- The column update over the previous contents. -/
theorem read_colStore (M : Memref sig .tc .vmem S1x4096 .f32) (hM : M.IsWhole) (xs1 : Vec Ideal S1x4096 .f32)
    (off : Fin 2 → ℕ) (inb : ∀ a, off a + (![1, 1024] : Fin 2 → ℕ) a ≤ S1x4096.size a)
    (v27 : FVec Ideal S1x1024 .f32) (o : ℕ) (hoff : off = ![0, o]) :
    M.view.read (Elt Ideal) (M.view.writes (Elt Ideal) (hM.unread xs1)
      [(⟨Rect.unit off ![1, 1024] inb, k0_pay2 (F := Ideal) v27 (View.ld xs1 (Rect.unit off ![1, 1024] inb))⟩ :
        View.Piece (Elt Ideal) S1x4096 .f32)])
      = colStep xs1 v27 o := by
  funext y
  unfold colStep
  by_cases h : o ≤ (y 1).val ∧ (y 1).val < o + 1024
  · rw [dif_pos h]
    refine (View.read_writes_cons_unit_of_mem M.view (hM.unread xs1) inb _ [] y
      (ix2 (0 : Fin 1) (⟨(y 1).val - o, by omega⟩ : Fin 1024)) hoff ?_).trans ?_
    · intro a
      match a with
      | ⟨0, _⟩ =>
        show (y 0).val = 0 + 0
        have := idx2_lt0 y
        omega
      | ⟨1, _⟩ =>
        show (y 1).val = o + ((y 1).val - o)
        omega
    · rw [Tile.pay2_apply]
      exact congrArg (min · _) (ld_slice_apply xs1 off inb o hoff y h)
  · rw [dif_neg h]
    refine (View.read_writes_cons_unit_of_not_mem M.view (hM.unread xs1) inb _ [] y hoff (1 : Fin 2)
      (by show (y 1).val < o ∨ o + 1024 ≤ (y 1).val; omega)).trans ?_
    rw [View.writes_nil, hM.read_unread]

/-- The column update at the first tile of a cloud: over a fresh fill with +inf. -/
theorem read_colInit {sig' : RefSig} {κ' : Kind} {sp' : Space} (V : View sig' κ' sp' S1x4096 .f32)
    (M : Memref sig .tc .vmem S1x4096 .f32)
    (off : Fin 2 → ℕ) (inb : ∀ a, off a + (![1, 1024] : Fin 2 → ℕ) a ≤ S1x4096.size a)
    (inb0 : ∀ a, (![0, 0] : Fin 2 → ℕ) a + S1x4096.size a ≤ S1x4096.size a)
    (v27 : FVec Ideal S1x1024 .f32) (o : ℕ) (hoff : off = ![0, o]) :
    V.read (Elt Ideal) (V.writes (Elt Ideal) V.junk
      [(⟨Rect.unit off ![1, 1024] inb, k0_pay2 (F := Ideal) v27 (View.ld (M.view.read (Elt Ideal) (M.view.writes (Elt Ideal) M.view.junk
          [(⟨Rect.unit ![0, 0] S1x4096.size inb0, k0_pay6 (F := Ideal)⟩ : View.Piece (Elt Ideal) S1x4096 .f32)])) (Rect.unit off ![1, 1024] inb))⟩ :
        View.Piece (Elt Ideal) S1x4096 .f32),
       (⟨Rect.unit ![0, 0] S1x4096.size inb0, k0_pay6 (F := Ideal)⟩ : View.Piece (Elt Ideal) S1x4096 .f32)])
      = colStep (fun _ => (⊤ : EReal)) v27 o := by
  rw [read_whole_store M.view _ hz2 inb0]
  funext y
  unfold colStep
  by_cases h : o ≤ (y 1).val ∧ (y 1).val < o + 1024
  · rw [dif_pos h]
    refine (View.read_writes_cons_unit_of_mem V V.junk inb _ _ y
      (ix2 (0 : Fin 1) (⟨(y 1).val - o, by omega⟩ : Fin 1024)) hoff ?_).trans ?_
    · intro a
      match a with
      | ⟨0, _⟩ =>
        show (y 0).val = 0 + 0
        have := idx2_lt0 y
        omega
      | ⟨1, _⟩ =>
        show (y 1).val = o + ((y 1).val - o)
        omega
    · rw [Tile.pay2_apply]
      refine congrArg (min · _) ?_
      exact (ld_slice_apply (k0_pay6 (F := Ideal)) off inb o hoff y h).trans (Tile.pay6_apply y)
  · rw [dif_neg h]
    refine (View.read_writes_cons_unit_of_not_mem V V.junk inb _ _ y hoff (1 : Fin 2)
      (by show (y 1).val < o ∨ o + 1024 ≤ (y 1).val; omega)).trans ?_
    rw [read_whole_store V _ hz2 inb0]
    exact Tile.pay6_apply y

end Cert.KernelIdeal.Store

end
-- ==== Proof.ChamferStep.lean ====
/-
  One step of the walk, on whole buffers.

  Given the three blocks of position n as blocks of the whole arrays (cloud n / 8, rows from 2048 (n / 4 mod 2),
  columns from 1024 (n mod 4)), the body's new row accumulator is the closed form of position n when the old one
  is the closed form of position n - 1 (or the restart), and likewise the column accumulator: the tile's minima
  are the infima of the distance over the tile's rows or columns, and a minimum of infima is the infimum over
  the union (the laws of the specification).
-/
import proofs.«157774_j4698694221980_2_alg».proof.Proof.ChamferStore

noncomputable section

namespace Cert.KernelIdeal.Step

open Cert.KernelIdeal Cert.KernelIdeal.Gen Idealize.ShloMosaic Idealize.ShloMosaic.ValueIdx
open Cert.KernelIdeal.Store

variable [Cert.KernelIdeal.Facts]

variable (X : Chamfer.SX.Idx → EReal) (Yt : Chamfer.SYt.Idx → EReal) (Y2 : Chamfer.SY2.Idx → EReal)

/-- The row accumulator's closed form after position n, as contents of the buffer. -/
def rowAccV (n : ℕ) : S2048x1.Idx → EReal := fun y => Chamfer.rowAcc X Yt Y2 n (y 0)
/-- The column accumulator's closed form after position n, as contents of the buffer. -/
def colAccV (n : ℕ) : S1x4096.Idx → EReal := fun y => Chamfer.colAcc X Yt Y2 n (y 1)

/-! ## The column laws in the form of a slice update -/

theorem colAcc_first (n : ℕ) (h : n % 8 = 0) (q : Fin 4096) :
    (if hq : 1024 * (n % 4) ≤ q.val ∧ q.val < 1024 * (n % 4) + 1024 then
        min (⊤ : EReal) ((⊤ : EReal) ⊓ Chamfer.tileCol X Yt Y2 n (⟨q.val - 1024 * (n % 4), by omega⟩ : Fin 1024))
      else (⊤ : EReal)) = Chamfer.colAcc X Yt Y2 n q := by
  by_cases hq : 1024 * (n % 4) ≤ q.val ∧ q.val < 1024 * (n % 4) + 1024
  · rw [dif_pos hq]
    have hq' : q.val < 1024 := by omega
    have e : (⟨q.val - 1024 * (n % 4), by omega⟩ : Fin 1024) = ⟨q.val, hq'⟩ := Fin.ext (by show q.val - 1024 * (n % 4) = q.val; omega)
    rw [e]
    exact Chamfer.colAcc_first_hit X Yt Y2 n h q hq'
  · rw [dif_neg hq]
    exact Chamfer.colAcc_first_miss X Yt Y2 n h q (by omega)

theorem colAcc_step (n : ℕ) (h : n % 8 ≠ 0) (q : Fin 4096) :
    (if hq : 1024 * (n % 4) ≤ q.val ∧ q.val < 1024 * (n % 4) + 1024 then
        min (Chamfer.colAcc X Yt Y2 (n - 1) q)
          ((⊤ : EReal) ⊓ Chamfer.tileCol X Yt Y2 n (⟨q.val - 1024 * (n % 4), by omega⟩ : Fin 1024))
      else Chamfer.colAcc X Yt Y2 (n - 1) q) = Chamfer.colAcc X Yt Y2 n q := by
  have hqlt := q.isLt
  by_cases hq : 1024 * (n % 4) ≤ q.val ∧ q.val < 1024 * (n % 4) + 1024
  · rw [dif_pos hq]
    exact Chamfer.colAcc_step_hit X Yt Y2 n h q (by omega)
  · rw [dif_neg hq]
    exact Chamfer.colAcc_step_miss X Yt Y2 n h q (by omega)

/-! ## The blocks of position n -/

variable (n : ℕ)
  (x0 : Vec Ideal S1x2048x3 .f32) (x1 : Vec Ideal S1x3x1024 .f32) (x2 : Vec Ideal S1x1x1024 .f32)
  (B : Fin 16) (hB : B.val = n / 8)
  (P : Fin 2048 → Fin 4096) (hP : ∀ r, (P r).val = 2048 * (n / 4 % 2) + r.val)
  (Q : Fin 1024 → Fin 4096) (hQ : ∀ s, (Q s).val = 1024 * (n % 4) + s.val)
  (h0 : ∀ r k, x0 (ix3 (0 : Fin 1) r k) = X (ix3 B (P r) k))
  (h1 : ∀ k s, x1 (ix3 (0 : Fin 1) k s) = Yt (ix3 B k (Q s)))
  (h2 : ∀ s, x2 (ix3 (0 : Fin 1) (0 : Fin 1) s) = Y2 (ix3 B (0 : Fin 1) (Q s)))

include hB hP hQ h0 h1 h2

/-- The tile of position n is the distance matrix on its rows and columns. -/
theorem tile_distN (r : Fin 2048) (s : Fin 1024) :
    Tile.tile x0 x1 x2 r s
      = Chamfer.distN X Yt Y2 (n / 8) (2048 * (n / 4 % 2) + r.val) (1024 * (n % 4) + s.val) := by
  rw [Tile.tile_eq_dist x0 x1 x2 X Yt Y2 B P Q h0 h1 h2 r s, ← Chamfer.distN_eq, hB, hP, hQ]

/-- The new row accumulator: the old one met with the tile's row minima. -/
theorem pay9_eq (xs0 : Vec Ideal S2048x1 .f32) (y : S2048x1.Idx) :
    k0_pay9 (F := Ideal) x0 x1 x2 xs0 y = min (xs0 y) ((⊤ : EReal) ⊓ Chamfer.tileRow X Yt Y2 n (y 0)) := by
  obtain ⟨r, u, rfl⟩ : ∃ (r : Fin 2048) (u : Fin 1), y = ix2 r u := ⟨y 0, y 1, eq_ix2 y⟩
  rw [Tile.pay9_apply]
  refine congrArg (fun z => min (xs0 (ix2 r u)) ((⊤ : EReal) ⊓ z)) ?_
  unfold Chamfer.tileRow
  exact Finset.inf_congr rfl fun s _ => tile_distN X Yt Y2 n x0 x1 x2 B hB P hP Q hQ h0 h1 h2 r s

/-- The tile's column minima. -/
theorem pay8_eq (u : Fin 1) (s : Fin 1024) :
    k0_pay8 (F := Ideal) x0 x1 x2 (ix2 u s) = ((⊤ : EReal) ⊓ Chamfer.tileCol X Yt Y2 n s) := by
  rw [Tile.pay8_apply]
  refine congrArg (fun z => (⊤ : EReal) ⊓ z) ?_
  unfold Chamfer.tileCol
  exact Finset.inf_congr rfl fun r _ => tile_distN X Yt Y2 n x0 x1 x2 B hB P hP Q hQ h0 h1 h2 r s

/-- At the first column tile of a row tile the row accumulator becomes the closed form. -/
theorem row_first (h : n % 4 = 0) :
    k0_pay9 (F := Ideal) x0 x1 x2 (k0_pay5 (F := Ideal)) = rowAccV X Yt Y2 n := by
  funext y
  rw [pay9_eq X Yt Y2 n x0 x1 x2 B hB P hP Q hQ h0 h1 h2, Tile.pay5_apply]
  exact Chamfer.rowAcc_first X Yt Y2 n h (y 0)

/-- At a later column tile it goes from the closed form of n - 1 to that of n. -/
theorem row_step (h : n % 4 ≠ 0) (xs0 : Vec Ideal S2048x1 .f32) (hs0 : xs0 = rowAccV X Yt Y2 (n - 1)) :
    k0_pay9 (F := Ideal) x0 x1 x2 xs0 = rowAccV X Yt Y2 n := by
  subst hs0
  funext y
  rw [pay9_eq X Yt Y2 n x0 x1 x2 B hB P hP Q hQ h0 h1 h2]
  exact Chamfer.rowAcc_step X Yt Y2 n h (y 0)

/-- At the first tile of a cloud the column accumulator becomes the closed form. -/
theorem col_first (h : n % 8 = 0) :
    colStep (fun _ => (⊤ : EReal)) (k0_pay8 (F := Ideal) x0 x1 x2) (1024 * (n % 4)) = colAccV X Yt Y2 n := by
  funext y
  unfold colStep
  simp only [pay8_eq X Yt Y2 n x0 x1 x2 B hB P hP Q hQ h0 h1 h2]
  exact colAcc_first X Yt Y2 n h (y 1)

/-- At a later tile it goes from the closed form of n - 1 to that of n. -/
theorem col_step (h : n % 8 ≠ 0) (xs1 : Vec Ideal S1x4096 .f32) (hs1 : xs1 = colAccV X Yt Y2 (n - 1)) :
    colStep xs1 (k0_pay8 (F := Ideal) x0 x1 x2) (1024 * (n % 4)) = colAccV X Yt Y2 n := by
  subst hs1
  funext y
  unfold colStep
  simp only [pay8_eq X Yt Y2 n x0 x1 x2 B hB P hP Q hQ h0 h1 h2]
  exact colAcc_step X Yt Y2 n h (y 1)

end Cert.KernelIdeal.Step

end
-- ==== Proof.ChamferBlocks.lean ====
/-
  The grid's positions and the input blocks.

  Position t of the grid is cloud t / 8, row tile t / 4 mod 2, column tile t mod 4 (the grid is 16 by 2 by 4, the
  last axis fastest).  The three input blocks of position t are the blocks of the region's three arrays at those
  places: 2048 rows of the points from row 2048 (t / 4 mod 2), 1024 columns of the transposed targets and of the
  squared norms from column 1024 (t mod 4), all of cloud t / 8.
-/
import proofs.«157774_j4698694221980_2_alg».proof.Proof.Gen.KernelIdeal.Frame
import proofs.«157774_j4698694221980_2_alg».proof.Proof.ChamferStep

noncomputable section

namespace Cert.KernelIdeal.Walk

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The points, as the region finds them. -/
abbrev X (c : Dev nD) : Chamfer.SX.Idx → EReal := V m c main_v5
/-- The transposed targets, as the region finds them. -/
abbrev Yt (c : Dev nD) : Chamfer.SYt.Idx → EReal := V m c main_v7
/-- The targets' squared norms, as the region finds them. -/
abbrev Y2 (c : Dev nD) : Chamfer.SY2.Idx → EReal := V m c main_v10

theorem lt128 (t : Fin cfg0.N) : t.val < 128 := lt_of_lt_of_eq t.isLt (show cfg0.N = 128 from N_0)

/-- The cloud of position t. -/
def cloud (t : Fin cfg0.N) : Fin 16 := ⟨t.val / 8, by have := lt128 t; omega⟩
/-- The row of the arrays that local row r of position t is. -/
def rowOf (t : Fin cfg0.N) (r : Fin 2048) : Fin 4096 := ⟨2048 * (t.val / 4 % 2) + r.val, by have := r.isLt; omega⟩
/-- The column of the arrays that local column s of position t is. -/
def colOf (t : Fin cfg0.N) (s : Fin 1024) : Fin 4096 := ⟨1024 * (t.val % 4) + s.val, by have := s.isLt; omega⟩

/-- The printed index maps and the third grid coordinate in closed form, decided over the grid. -/
theorem idx_facts : ∀ t : Fin cfg0.N,
    win0_0.index t (0 : Fin 3) = t.val / 8 ∧ win0_0.index t (1 : Fin 3) = t.val / 4 % 2 ∧ win0_0.index t (2 : Fin 3) = 0
    ∧ win0_1.index t (0 : Fin 3) = t.val / 8 ∧ win0_1.index t (1 : Fin 3) = 0 ∧ win0_1.index t (2 : Fin 3) = t.val % 4
    ∧ win0_2.index t (0 : Fin 3) = t.val / 8 ∧ win0_2.index t (1 : Fin 3) = 0 ∧ win0_2.index t (2 : Fin 3) = t.val % 4
    ∧ win0_3.index t (0 : Fin 3) = t.val / 8 ∧ win0_3.index t (1 : Fin 3) = t.val / 4 % 2 ∧ win0_3.index t (2 : Fin 3) = 0
    ∧ win0_4.index t (0 : Fin 3) = t.val / 8 ∧ win0_4.index t (1 : Fin 3) = 0 ∧ win0_4.index t (2 : Fin 3) = 0
    ∧ ((grid0.coords t) 2).val = t.val % 4 :=
  (by decide +kernel : ∀ t : Fin grid0.N, _)

/-- The slice of the column accumulator that position t updates starts at column 1024 (t mod 4). -/
theorem off_eq (t : Fin cfg0.N) : k0_off1 (grid0.coords t) = ![0, 1024 * (t.val % 4)] := by
  obtain ⟨-, -, -, -, -, -, -, -, -, -, -, -, -, -, -, e⟩ := idx_facts t
  rw [k0_off1_eq, e]

/-- The points' block of position t. -/
theorem blk0 (c : Dev nD) (t : Fin cfg0.N) (r : Fin 2048) (k : Fin 3) :
    (iblk m c 0 t : Vec Ideal S1x2048x3 .f32) (ix3 (0 : Fin 1) r k) = X m c (ix3 (cloud t) (rowOf t r) k) := by
  obtain ⟨e0, e1, e2, -⟩ := idx_facts t
  show V m c main_v5 (((cfg0.win 0).blk t).view.emb (ix3 (0 : Fin 1) r k)) = V m c main_v5 _
  refine congrArg (V m c main_v5) (funext fun a => Fin.ext ?_)
  match a with
  | ⟨0, _⟩ => show win0_0.index t (0 : Fin 3) * 1 + 1 * 0 = t.val / 8; omega
  | ⟨1, _⟩ => show win0_0.index t (1 : Fin 3) * 2048 + 1 * r.val = 2048 * (t.val / 4 % 2) + r.val; omega
  | ⟨2, _⟩ => show win0_0.index t (2 : Fin 3) * 3 + 1 * k.val = k.val; omega

/-- The transposed targets' block of position t. -/
theorem blk1 (c : Dev nD) (t : Fin cfg0.N) (k : Fin 3) (s : Fin 1024) :
    (iblk m c 1 t : Vec Ideal S1x3x1024 .f32) (ix3 (0 : Fin 1) k s) = Yt m c (ix3 (cloud t) k (colOf t s)) := by
  obtain ⟨-, -, -, e0, e1, e2, -⟩ := idx_facts t
  show V m c main_v7 (((cfg0.win 1).blk t).view.emb (ix3 (0 : Fin 1) k s)) = V m c main_v7 _
  refine congrArg (V m c main_v7) (funext fun a => Fin.ext ?_)
  match a with
  | ⟨0, _⟩ => show win0_1.index t (0 : Fin 3) * 1 + 1 * 0 = t.val / 8; omega
  | ⟨1, _⟩ => show win0_1.index t (1 : Fin 3) * 3 + 1 * k.val = k.val; omega
  | ⟨2, _⟩ => show win0_1.index t (2 : Fin 3) * 1024 + 1 * s.val = 1024 * (t.val % 4) + s.val; omega

/-- The squared norms' block of position t. -/
theorem blk2 (c : Dev nD) (t : Fin cfg0.N) (s : Fin 1024) :
    (iblk m c 2 t : Vec Ideal S1x1x1024 .f32) (ix3 (0 : Fin 1) (0 : Fin 1) s) = Y2 m c (ix3 (cloud t) (0 : Fin 1) (colOf t s)) := by
  obtain ⟨-, -, -, -, -, -, e0, e1, e2, -⟩ := idx_facts t
  show V m c main_v10 (((cfg0.win 2).blk t).view.emb (ix3 (0 : Fin 1) (0 : Fin 1) s)) = V m c main_v10 _
  refine congrArg (V m c main_v10) (funext fun a => Fin.ext ?_)
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 1024 + 1 * s.val = 1024 * (t.val % 4) + s.val; omega

end Cert.KernelIdeal.Walk

end
-- ==== Proof.ChamferPieces.lean ====
/-
  What each case of the body leaves in the two accumulators and in the two output blocks, as values.

  The walk has five kinds of grid point.  At every one the row accumulator receives one store of the whole
  buffer: the previous contents (or +inf, at the first column tile of a row tile) met with the tile's row
  minima.  The column accumulator receives one store of a 1024-column slice: the previous slice (or +inf, at the
  first tile of a cloud, where the whole buffer is first filled with +inf) met with the tile's column minima.
  At the last column tile the row output block is the row accumulator, and at the last tile of a cloud the
  column output block is the column accumulator, each with a leading unit axis.
-/
import proofs.«157774_j4698694221980_2_alg».proof.Proof.Gen.KernelIdeal.Frame
import proofs.«157774_j4698694221980_2_alg».proof.Proof.ChamferStore
import Idealize.ShloMosaic.Lib.Tactic

noncomputable section

namespace Cert.KernelIdeal.Pieces

open Cert.KernelIdeal Cert.KernelIdeal.Gen Idealize.ShloMosaic Idealize.ShloMosaic.TcCoe Idealize.SL.Sem
open Cert.KernelIdeal.Store

/-- Case B: the row accumulator takes in the tile's row minima. -/
theorem rowAcc_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : ¬cond0_0 i) (hc1 : ¬cond0_1 i) (hc2 : ¬cond0_2 i) (hc3 : ¬cond0_3 i)
    (x0 : Vec Ideal S1x2048x3 .f32) (x1 : Vec Ideal S1x3x1024 .f32) (x2 : Vec Ideal S1x1x1024 .f32) (xs0 : Vec Ideal S2048x1 .f32) (xs1 : Vec Ideal S1x4096 .f32) :
    sout0_B_0 c i arg3 harg3 arg4 harg4 arg5 harg5 arg6 harg6 arg7 harg7 arg8 harg8 arg9 harg9 hc0 hc1 hc2 hc3 x0 x1 x2 xs0 xs1 = k0_pay9 (F := Ideal) x0 x1 x2 xs0 := by
  unfold sout0_B_0
  unfold kernelRun0_B
  dsimp only
  try sl_unfold_run_names
  refine (read_whole_store _ _ hz2 _ _).trans ?_
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact Tile.pay1_eq _

/-- Case C: the row accumulator takes in the tile's row minima. -/
theorem rowAcc_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : ¬cond0_0 i) (hc1 : ¬cond0_1 i) (hc2 : cond0_2 i) (hc3 : ¬cond0_3 i)
    (x0 : Vec Ideal S1x2048x3 .f32) (x1 : Vec Ideal S1x3x1024 .f32) (x2 : Vec Ideal S1x1x1024 .f32) (xs0 : Vec Ideal S2048x1 .f32) (xs1 : Vec Ideal S1x4096 .f32) :
    sout0_C_0 c i arg3 harg3 arg4 harg4 arg5 harg5 arg6 harg6 arg7 harg7 arg8 harg8 arg9 harg9 hc0 hc1 hc2 hc3 x0 x1 x2 xs0 xs1 = k0_pay9 (F := Ideal) x0 x1 x2 xs0 := by
  unfold sout0_C_0
  unfold kernelRun0_C
  dsimp only
  try sl_unfold_run_names
  refine (read_whole_store _ _ hz2 _ _).trans ?_
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact Tile.pay1_eq _

/-- Case E: the row accumulator takes in the tile's row minima. -/
theorem rowAcc_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : ¬cond0_0 i) (hc1 : ¬cond0_1 i) (hc2 : cond0_2 i) (hc3 : cond0_3 i)
    (x0 : Vec Ideal S1x2048x3 .f32) (x1 : Vec Ideal S1x3x1024 .f32) (x2 : Vec Ideal S1x1x1024 .f32) (xs0 : Vec Ideal S2048x1 .f32) (xs1 : Vec Ideal S1x4096 .f32) :
    sout0_E_0 c i arg3 harg3 arg4 harg4 arg5 harg5 arg6 harg6 arg7 harg7 arg8 harg8 arg9 harg9 hc0 hc1 hc2 hc3 x0 x1 x2 xs0 xs1 = k0_pay9 (F := Ideal) x0 x1 x2 xs0 := by
  unfold sout0_E_0
  unfold kernelRun0_E
  dsimp only
  try sl_unfold_run_names
  refine (read_whole_store _ _ hz2 _ _).trans ?_
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact Tile.pay1_eq _

/-- Case A: the row accumulator restarts from +inf and takes in the tile's row minima. -/
theorem rowAcc_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : cond0_0 i) (hc1 : cond0_1 i) (hc2 : ¬cond0_2 i) (hc3 : ¬cond0_3 i)
    (x0 : Vec Ideal S1x2048x3 .f32) (x1 : Vec Ideal S1x3x1024 .f32) (x2 : Vec Ideal S1x1x1024 .f32)  :
    sout0_A_0 c i arg3 harg3 arg4 harg4 arg5 harg5 arg6 harg6 arg7 harg7 arg8 harg8 arg9 harg9 hc0 hc1 hc2 hc3 x0 x1 x2 = k0_pay9 (F := Ideal) x0 x1 x2 (k0_pay5 (F := Ideal)) := by
  unfold sout0_A_0
  rw [View.read_writes_eq_canon _ _ _ (scover0_A_0 c i arg3 harg3 arg4 harg4 arg5 harg5 arg6 harg6 arg7 harg7 arg8 harg8 arg9 harg9 hc0 hc1 hc2 hc3 x0 x1 x2)]
  unfold kernelRun0_A
  dsimp only
  try sl_unfold_run_names
  rw [View.canon_cons_unit_zero (S := S2048x1) hz2, View.readCov_unit_zero (S := S2048x1) _ hz2]
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact Tile.pay1_eq _

/-- Case D: the row accumulator restarts from +inf and takes in the tile's row minima. -/
theorem rowAcc_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : cond0_0 i) (hc1 : ¬cond0_1 i) (hc2 : ¬cond0_2 i) (hc3 : ¬cond0_3 i)
    (x0 : Vec Ideal S1x2048x3 .f32) (x1 : Vec Ideal S1x3x1024 .f32) (x2 : Vec Ideal S1x1x1024 .f32) (xs1 : Vec Ideal S1x4096 .f32) :
    sout0_D_0 c i arg3 harg3 arg4 harg4 arg5 harg5 arg6 harg6 arg7 harg7 arg8 harg8 arg9 harg9 hc0 hc1 hc2 hc3 x0 x1 x2 xs1 = k0_pay9 (F := Ideal) x0 x1 x2 (k0_pay5 (F := Ideal)) := by
  unfold sout0_D_0
  rw [View.read_writes_eq_canon _ _ _ (scover0_D_0 c i arg3 harg3 arg4 harg4 arg5 harg5 arg6 harg6 arg7 harg7 arg8 harg8 arg9 harg9 hc0 hc1 hc2 hc3 x0 x1 x2 xs1)]
  unfold kernelRun0_D
  dsimp only
  try sl_unfold_run_names
  rw [View.canon_cons_unit_zero (S := S2048x1) hz2, View.readCov_unit_zero (S := S2048x1) _ hz2]
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact Tile.pay1_eq _

/-- Case B: the column accumulator's slice at column o takes in the tile's column minima. -/
theorem colAcc_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : ¬cond0_0 i) (hc1 : ¬cond0_1 i) (hc2 : ¬cond0_2 i) (hc3 : ¬cond0_3 i)
    (x0 : Vec Ideal S1x2048x3 .f32) (x1 : Vec Ideal S1x3x1024 .f32) (x2 : Vec Ideal S1x1x1024 .f32) (xs0 : Vec Ideal S2048x1 .f32) (xs1 : Vec Ideal S1x4096 .f32) (o : ℕ) (hoff : k0_off1 i = ![0, o]) :
    sout0_B_1 c i arg3 harg3 arg4 harg4 arg5 harg5 arg6 harg6 arg7 harg7 arg8 harg8 arg9 harg9 hc0 hc1 hc2 hc3 x0 x1 x2 xs0 xs1 = colStep xs1 (k0_pay8 (F := Ideal) x0 x1 x2) o := by
  unfold sout0_B_1
  unfold kernelRun0_B
  dsimp only
  try sl_unfold_run_names
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact read_colStore arg9 harg9 xs1 (k0_off1 i) (k0_off1_inb i) _ o hoff

/-- Case C: the column accumulator's slice at column o takes in the tile's column minima. -/
theorem colAcc_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : ¬cond0_0 i) (hc1 : ¬cond0_1 i) (hc2 : cond0_2 i) (hc3 : ¬cond0_3 i)
    (x0 : Vec Ideal S1x2048x3 .f32) (x1 : Vec Ideal S1x3x1024 .f32) (x2 : Vec Ideal S1x1x1024 .f32) (xs0 : Vec Ideal S2048x1 .f32) (xs1 : Vec Ideal S1x4096 .f32) (o : ℕ) (hoff : k0_off1 i = ![0, o]) :
    sout0_C_1 c i arg3 harg3 arg4 harg4 arg5 harg5 arg6 harg6 arg7 harg7 arg8 harg8 arg9 harg9 hc0 hc1 hc2 hc3 x0 x1 x2 xs0 xs1 = colStep xs1 (k0_pay8 (F := Ideal) x0 x1 x2) o := by
  unfold sout0_C_1
  unfold kernelRun0_C
  dsimp only
  try sl_unfold_run_names
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact read_colStore arg9 harg9 xs1 (k0_off1 i) (k0_off1_inb i) _ o hoff

/-- Case D: the column accumulator's slice at column o takes in the tile's column minima. -/
theorem colAcc_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : cond0_0 i) (hc1 : ¬cond0_1 i) (hc2 : ¬cond0_2 i) (hc3 : ¬cond0_3 i)
    (x0 : Vec Ideal S1x2048x3 .f32) (x1 : Vec Ideal S1x3x1024 .f32) (x2 : Vec Ideal S1x1x1024 .f32) (xs1 : Vec Ideal S1x4096 .f32) (o : ℕ) (hoff : k0_off1 i = ![0, o]) :
    sout0_D_1 c i arg3 harg3 arg4 harg4 arg5 harg5 arg6 harg6 arg7 harg7 arg8 harg8 arg9 harg9 hc0 hc1 hc2 hc3 x0 x1 x2 xs1 = colStep xs1 (k0_pay8 (F := Ideal) x0 x1 x2) o := by
  unfold sout0_D_1
  unfold kernelRun0_D
  dsimp only
  try sl_unfold_run_names
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact read_colStore arg9 harg9 xs1 (k0_off1 i) (k0_off1_inb i) _ o hoff

/-- Case E: the column accumulator's slice at column o takes in the tile's column minima. -/
theorem colAcc_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : ¬cond0_0 i) (hc1 : ¬cond0_1 i) (hc2 : cond0_2 i) (hc3 : cond0_3 i)
    (x0 : Vec Ideal S1x2048x3 .f32) (x1 : Vec Ideal S1x3x1024 .f32) (x2 : Vec Ideal S1x1x1024 .f32) (xs0 : Vec Ideal S2048x1 .f32) (xs1 : Vec Ideal S1x4096 .f32) (o : ℕ) (hoff : k0_off1 i = ![0, o]) :
    sout0_E_1 c i arg3 harg3 arg4 harg4 arg5 harg5 arg6 harg6 arg7 harg7 arg8 harg8 arg9 harg9 hc0 hc1 hc2 hc3 x0 x1 x2 xs0 xs1 = colStep xs1 (k0_pay8 (F := Ideal) x0 x1 x2) o := by
  unfold sout0_E_1
  unfold kernelRun0_E
  dsimp only
  try sl_unfold_run_names
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact read_colStore arg9 harg9 xs1 (k0_off1 i) (k0_off1_inb i) _ o hoff

/-- Case A: the column accumulator is filled with +inf, then its slice at column o takes in the tile's column minima. -/
theorem colAcc_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : cond0_0 i) (hc1 : cond0_1 i) (hc2 : ¬cond0_2 i) (hc3 : ¬cond0_3 i)
    (x0 : Vec Ideal S1x2048x3 .f32) (x1 : Vec Ideal S1x3x1024 .f32) (x2 : Vec Ideal S1x1x1024 .f32)  (o : ℕ) (hoff : k0_off1 i = ![0, o]) :
    sout0_A_1 c i arg3 harg3 arg4 harg4 arg5 harg5 arg6 harg6 arg7 harg7 arg8 harg8 arg9 harg9 hc0 hc1 hc2 hc3 x0 x1 x2 = colStep (fun _ => (⊤ : EReal)) (k0_pay8 (F := Ideal) x0 x1 x2) o := by
  unfold sout0_A_1
  unfold kernelRun0_A
  dsimp only
  try sl_unfold_run_names
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact read_colInit VS0_1 arg9 (k0_off1 i) (k0_off1_inb i) inb_S1x4096_S1x4096_0_0 _ o hoff

/-- Case C: the row output block is the updated row accumulator with a leading unit axis. -/
theorem rowOut_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : ¬cond0_0 i) (hc1 : ¬cond0_1 i) (hc2 : cond0_2 i) (hc3 : ¬cond0_3 i)
    (x0 : Vec Ideal S1x2048x3 .f32) (x1 : Vec Ideal S1x3x1024 .f32) (x2 : Vec Ideal S1x1x1024 .f32) (xs0 : Vec Ideal S2048x1 .f32) (xs1 : Vec Ideal S1x4096 .f32) :
    out0_C_3 c i arg3 harg3 arg4 harg4 arg5 harg5 arg6 harg6 arg7 harg7 arg8 harg8 arg9 harg9 hc0 hc1 hc2 hc3 x0 x1 x2 xs0 xs1 = k0_pay3 (F := Ideal) (k0_pay9 (F := Ideal) x0 x1 x2 xs0) := by
  unfold out0_C_3
  unfold kernelRun0_C
  dsimp only
  try sl_unfold_run_names
  refine (read_whole_store _ _ hz3 _ _).trans ?_
  rw [View.readCov_unit_zero (S := S2048x1) _ hz2]
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  rw [Tile.pay1_eq]

/-- Case E: the row output block is the updated row accumulator with a leading unit axis. -/
theorem rowOut_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : ¬cond0_0 i) (hc1 : ¬cond0_1 i) (hc2 : cond0_2 i) (hc3 : cond0_3 i)
    (x0 : Vec Ideal S1x2048x3 .f32) (x1 : Vec Ideal S1x3x1024 .f32) (x2 : Vec Ideal S1x1x1024 .f32) (xs0 : Vec Ideal S2048x1 .f32) (xs1 : Vec Ideal S1x4096 .f32) :
    out0_E_3 c i arg3 harg3 arg4 harg4 arg5 harg5 arg6 harg6 arg7 harg7 arg8 harg8 arg9 harg9 hc0 hc1 hc2 hc3 x0 x1 x2 xs0 xs1 = k0_pay3 (F := Ideal) (k0_pay9 (F := Ideal) x0 x1 x2 xs0) := by
  unfold out0_E_3
  unfold kernelRun0_E
  dsimp only
  try sl_unfold_run_names
  refine (read_whole_store _ _ hz3 _ _).trans ?_
  rw [View.readCov_unit_zero (S := S2048x1) _ hz2]
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  rw [Tile.pay1_eq]

/-- Case E: the column output block is the updated column accumulator with a leading unit axis. -/
theorem colOut_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x2048x1 .f32) (harg6 : arg6.IsWhole) (arg7 : Memref sig .tc .vmem S1x1x4096 .f32) (harg7 : arg7.IsWhole) (arg8 : Memref sig .tc .vmem S2048x1 .f32) (harg8 : arg8.IsWhole) (arg9 : Memref sig .tc .vmem S1x4096 .f32) (harg9 : arg9.IsWhole)
    (hc0 : ¬cond0_0 i) (hc1 : ¬cond0_1 i) (hc2 : cond0_2 i) (hc3 : cond0_3 i)
    (x0 : Vec Ideal S1x2048x3 .f32) (x1 : Vec Ideal S1x3x1024 .f32) (x2 : Vec Ideal S1x1x1024 .f32) (xs0 : Vec Ideal S2048x1 .f32) (xs1 : Vec Ideal S1x4096 .f32) (o : ℕ) (hoff : k0_off1 i = ![0, o]) :
    out0_E_4 c i arg3 harg3 arg4 harg4 arg5 harg5 arg6 harg6 arg7 harg7 arg8 harg8 arg9 harg9 hc0 hc1 hc2 hc3 x0 x1 x2 xs0 xs1 = k0_pay4 (F := Ideal) (colStep xs1 (k0_pay8 (F := Ideal) x0 x1 x2) o) := by
  unfold out0_E_4
  unfold kernelRun0_E
  dsimp only
  try sl_unfold_run_names
  refine (read_whole_store _ _ hz3 _ _).trans ?_
  simp only [View.readAt_eq_ld, harg3.read_unread, harg4.read_unread, harg5.read_unread, harg8.read_unread, harg9.read_unread,
    View.ld_unit_zero (S := S1x2048x3) hz3, View.ld_unit_zero (S := S1x3x1024) hz3, View.ld_unit_zero (S := S1x1x1024) hz3,
    View.ld_unit_zero (S := S2048x1) hz2, View.ld_unit_zero (S := S1x4096) hz2]
  exact congrArg (k0_pay4 (F := Ideal)) (read_colStore arg9 harg9 xs1 (k0_off1 i) (k0_off1_inb i) _ o hoff)

end Cert.KernelIdeal.Pieces

end
-- ==== Proof.ChamferWalk.lean ====
/-
  The walk over the grid: what the two accumulators hold after every position.

  By induction over the positions the row accumulator and the column accumulator hold their closed forms after
  every position: each of the five kinds of position is one step of the specification's laws.  So the row output
  block written back after the last column tile holds the rows' minima over every target, and the column output
  block written back after the last tile of a cloud holds the columns' minima over every point.
-/
import proofs.«157774_j4698694221980_2_alg».proof.Proof.ChamferBlocks
import proofs.«157774_j4698694221980_2_alg».proof.Proof.ChamferPieces

noncomputable section

namespace Cert.KernelIdeal.Walk

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- After every position the two accumulators hold their closed forms. -/
theorem walk_aux (c : Dev nD) : ∀ (n : ℕ) (t : Fin cfg0.N), t.val = n →
    (outsAt0 m c t.val t.isLt).2.2.1 = Step.rowAccV (X m c) (Yt m c) (Y2 m c) t.val
    ∧ (outsAt0 m c t.val t.isLt).2.2.2 = Step.colAccV (X m c) (Yt m c) (Y2 m c) t.val := by
  intro n
  induction n using Nat.strong_induction_on with
  | _ n IH =>
    intro t ht
    have hoff := off_eq t
    by_cases h0 : t.val % 4 = 0
    · by_cases h1 : t.val % 8 = 0
      · have h2 : ¬t.val % 4 = 3 := by omega
        have h3 : ¬t.val % 8 = 7 := by omega
        have e := outsAt0_A m c t h0 h1 h2 h3
        rw [e]
        dsimp only
        refine ⟨(Pieces.rowAcc_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t)).trans ?_,
          (Pieces.colAcc_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (1024 * (t.val % 4)) hoff).trans ?_⟩
        · exact Step.row_first (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h0
        · exact Step.col_first (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h1
      · have h2 : ¬t.val % 4 = 3 := by omega
        have h3 : ¬t.val % 8 = 7 := by omega
        have ih : (outsAt0 m c (t.val - 1) (Nat.lt_of_le_of_lt (Nat.sub_le _ _) t.isLt)).2.2.1 = Step.rowAccV (X m c) (Yt m c) (Y2 m c) (t.val - 1)
        ∧ (outsAt0 m c (t.val - 1) (Nat.lt_of_le_of_lt (Nat.sub_le _ _) t.isLt)).2.2.2 = Step.colAccV (X m c) (Yt m c) (Y2 m c) (t.val - 1) :=
          IH (t.val - 1) (by omega) ⟨t.val - 1, Nat.lt_of_le_of_lt (Nat.sub_le _ _) t.isLt⟩ rfl
        have e := outsAt0_D m c t h0 h1 h2 h3
        rw [e]
        dsimp only
        refine ⟨(Pieces.rowAcc_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.2.2).trans ?_,
          (Pieces.colAcc_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.2.2 (1024 * (t.val % 4)) hoff).trans ?_⟩
        · exact Step.row_first (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h0
        · exact Step.col_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h1 _ ih.2
    · have h1 : ¬t.val % 8 = 0 := by omega
      have ih : (outsAt0 m c (t.val - 1) (Nat.lt_of_le_of_lt (Nat.sub_le _ _) t.isLt)).2.2.1 = Step.rowAccV (X m c) (Yt m c) (Y2 m c) (t.val - 1)
        ∧ (outsAt0 m c (t.val - 1) (Nat.lt_of_le_of_lt (Nat.sub_le _ _) t.isLt)).2.2.2 = Step.colAccV (X m c) (Yt m c) (Y2 m c) (t.val - 1) :=
        IH (t.val - 1) (by omega) ⟨t.val - 1, Nat.lt_of_le_of_lt (Nat.sub_le _ _) t.isLt⟩ rfl
      by_cases h2 : t.val % 4 = 3
      · by_cases h3 : t.val % 8 = 7
        ·
          have e := outsAt0_E m c t h0 h1 h2 h3
          rw [e]
          dsimp only
          refine ⟨(Pieces.rowAcc_E c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_,
            (Pieces.colAcc_E c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 4)) hoff).trans ?_⟩
          · exact Step.row_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h0 _ ih.1
          · exact Step.col_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h1 _ ih.2
        ·
          have e := outsAt0_C m c t h0 h1 h2 h3
          rw [e]
          dsimp only
          refine ⟨(Pieces.rowAcc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_,
            (Pieces.colAcc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 4)) hoff).trans ?_⟩
          · exact Step.row_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h0 _ ih.1
          · exact Step.col_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h1 _ ih.2
      · have h3 : ¬t.val % 8 = 7 := by omega
        have e := outsAt0_B m c t h0 h1 h2 h3
        rw [e]
        dsimp only
        refine ⟨(Pieces.rowAcc_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_,
          (Pieces.colAcc_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 4)) hoff).trans ?_⟩
        · exact Step.row_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h0 _ ih.1
        · exact Step.col_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h1 _ ih.2

theorem walk (c : Dev nD) (t : Fin cfg0.N) :
    (outsAt0 m c t.val t.isLt).2.2.1 = Step.rowAccV (X m c) (Yt m c) (Y2 m c) t.val
    ∧ (outsAt0 m c t.val t.isLt).2.2.2 = Step.colAccV (X m c) (Yt m c) (Y2 m c) t.val :=
  walk_aux m c t.val t rfl

/-- The accumulators before position t, when it is not the first of its cloud. -/
theorem walk_prev (c : Dev nD) (t : Fin cfg0.N) :
    (outsAt0 m c (t.val - 1) (Nat.lt_of_le_of_lt (Nat.sub_le _ _) t.isLt)).2.2.1 = Step.rowAccV (X m c) (Yt m c) (Y2 m c) (t.val - 1)
        ∧ (outsAt0 m c (t.val - 1) (Nat.lt_of_le_of_lt (Nat.sub_le _ _) t.isLt)).2.2.2 = Step.colAccV (X m c) (Yt m c) (Y2 m c) (t.val - 1) :=
  walk m c ⟨t.val - 1, Nat.lt_of_le_of_lt (Nat.sub_le _ _) t.isLt⟩

/-- After the last column tile of a row tile the row output block is the row accumulator's closed form. -/
theorem out3_at (c : Dev nD) (t : Fin cfg0.N) (h2 : t.val % 4 = 3) :
    (outsAt0 m c t.val t.isLt).1 = k0_pay3 (F := Ideal) (Step.rowAccV (X m c) (Yt m c) (Y2 m c) t.val) := by
  have h0 : ¬t.val % 4 = 0 := by omega
  have h1 : ¬t.val % 8 = 0 := by omega
  have ih := walk_prev m c t
  by_cases h3 : t.val % 8 = 7
  · have e := outsAt0_E m c t h0 h1 h2 h3
    rw [e]
    dsimp only
    refine (Pieces.rowOut_E c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    exact congrArg (k0_pay3 (F := Ideal)) (Step.row_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h0 _ ih.1)
  · have e := outsAt0_C m c t h0 h1 h2 h3
    rw [e]
    dsimp only
    refine (Pieces.rowOut_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    exact congrArg (k0_pay3 (F := Ideal)) (Step.row_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h0 _ ih.1)

/-- After the last tile of a cloud the column output block is the column accumulator's closed form. -/
theorem out4_at (c : Dev nD) (t : Fin cfg0.N) (h3 : t.val % 8 = 7) :
    (outsAt0 m c t.val t.isLt).2.1 = k0_pay4 (F := Ideal) (Step.colAccV (X m c) (Yt m c) (Y2 m c) t.val) := by
  have h0 : ¬t.val % 4 = 0 := by omega
  have h1 : ¬t.val % 8 = 0 := by omega
  have h2 : t.val % 4 = 3 := by omega
  have ih := walk_prev m c t
  have e := outsAt0_E m c t h0 h1 h2 h3
  rw [e]
  dsimp only
  refine (Pieces.colOut_E c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 (1024 * (t.val % 4)) (off_eq t)).trans ?_
  exact congrArg (k0_pay4 (F := Ideal)) (Step.col_step (X m c) (Yt m c) (Y2 m c) t.val (iblk m c 0 t) (iblk m c 1 t) (iblk m c 2 t) (cloud t) rfl (rowOf t) (fun _ => rfl) (colOf t) (fun _ => rfl) (blk0 m c t) (blk1 m c t) (blk2 m c t) h1 _ ih.2)

end Cert.KernelIdeal.Walk

end
-- ==== Proof.ChamferArrays.lean ====
/-
  The two output arrays after the run.

  The row output array [16, 4096, 1] is written back in blocks of 2048 rows, once per (cloud, row tile), after the
  last column tile; the column output array [16, 1, 4096] in blocks of one cloud, after the cloud's last tile.
  Every index of either array lies in exactly such a block, so after the run
      rows(b, p, 0) = min over q of dist(b, p, q),      cols(b, 0, q) = min over p of dist(b, p, q).
-/
import proofs.«157774_j4698694221980_2_alg».proof.Proof.ChamferWalk
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Walk

variable (m : (ℓ : Loc nD τ sig) → Buf (Elt Ideal) ℓ)

/-- The rows' minima, as contents of the row output array. -/
def rowOut (X : Chamfer.SX.Idx → EReal) (Yt : Chamfer.SYt.Idx → EReal) (Y2 : Chamfer.SY2.Idx → EReal) :
    S16x4096x1.Idx → EReal := fun i => Chamfer.rowMin X Yt Y2 (i 0) (i 1)
/-- The columns' minima, as contents of the column output array. -/
def colOut (X : Chamfer.SX.Idx → EReal) (Yt : Chamfer.SYt.Idx → EReal) (Y2 : Chamfer.SY2.Idx → EReal) :
    S16x1x4096.Idx → EReal := fun i => Chamfer.colMin X Yt Y2 (i 0) (i 2)

/-! ## The row output -/

/-- What a write-back of the row output writes is that block of the rows' minima. -/
theorem flushed3_eq (c : Dev nD) (t : Fin cfg0.N) (hf : (cfg0.win 3).flush t = true) :
    (dats m 0 c).flushed 3 t = ((cfg0.win 3).blk t).view.read (Elt Ideal) (rowOut (X m c) (Yt m c) (Y2 m c)) := by
  have h2 : t.val % 4 = 3 := (flush0_3 t).mp hf
  have hN := lt128 t
  obtain ⟨-, -, -, -, -, -, -, -, -, e0, e1, e2, -⟩ := idx_facts t
  show (cfg0.win 3).cut (grid0.coords t) ((dats m 0 c).after 3 t) = _
  rw [after0_3, out3_at m c t h2]
  funext j
  obtain ⟨u, r, w, rfl⟩ : ∃ (u : Fin 1) (r : Fin 2048) (w : Fin 1), j = ix3 u r w := ⟨j 0, j 1, j 2, eq_ix3 j⟩
  show k0_pay3 (F := Ideal) (Step.rowAccV (X m c) (Yt m c) (Y2 m c) t.val) (ix3 u r w)
    = rowOut (X m c) (Yt m c) (Y2 m c) (((cfg0.win 3).blk t).view.emb (ix3 u r w))
  rw [Tile.pay3_apply]
  show Chamfer.rowAcc (X m c) (Yt m c) (Y2 m c) t.val r = Chamfer.rowMin (X m c) (Yt m c) (Y2 m c) _ _
  rw [Chamfer.rowAcc_last _ _ _ t.val hN h2 r]
  congr 1
  · apply Fin.ext
    show t.val / 8 = win0_3.index t (0 : Fin 3) * 1 + 1 * u.val
    have := u.isLt
    omega
  · apply Fin.ext
    show 2048 * (t.val / 4 % 2) + r.val = win0_3.index t (1 : Fin 3) * 2048 + 1 * r.val
    omega

/-- An index of the row output array is in position t's block iff each coordinate is in the block's range. -/
theorem mem_blk3 (t : Fin cfg0.N) (i : S16x4096x1.Idx) :
    i ∈ ((cfg0.win 3).blk t).view.set ↔ ∀ a : Fin 3, win0_3.index t a * S1x2048x1.size a ≤ (i a).val
      ∧ (i a).val < win0_3.index t a * S1x2048x1.size a + S1x2048x1.size a := by
  show i ∈ ((View.whole main_v11_0).slice (win0_3.rect t)).set ↔ _
  rw [View.set_slice_whole, Rect.mem_set_unit]
  exact Iff.rfl

/-- Every index of the row output array is written back: by the last column tile of its cloud and row tile. -/
theorem cover3 (i : S16x4096x1.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 1 := (i 2).isLt
  let t : Fin cfg0.N := ⟨8 * (i 0).val + 4 * ((i 1).val / 2048) + 3, lt_of_lt_of_eq (by omega) (N_0.symm : 128 = grid0.N)⟩
  have htv : t.val = 8 * (i 0).val + 4 * ((i 1).val / 2048) + 3 := rfl
  obtain ⟨-, -, -, -, -, -, -, -, -, e0, e1, e2, -⟩ := idx_facts t
  refine ⟨t, (flush0_3 t).mpr (by omega), ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 1 ≤ (i 2).val ∧ (i 2).val < win0_3.index t (2 : Fin 3) * 1 + 1
    omega

/-- The row output array after the run holds the rows' minima. -/
theorem final3 (c : Dev nD) : (dats m 0 c).arrAt 3 cfg0.N = rowOut (X m c) (Yt m c) (Y2 m c) :=
  (dats m 0 c).arrAt_eq_of_cover 3 (rowOut (X m c) (Yt m c) (Y2 m c)) (flushed3_eq m c) cover3

/-! ## The column output -/

/-- What a write-back of the column output writes is that cloud's columns' minima. -/
theorem flushed4_eq (c : Dev nD) (t : Fin cfg0.N) (hf : (cfg0.win 4).flush t = true) :
    (dats m 0 c).flushed 4 t = ((cfg0.win 4).blk t).view.read (Elt Ideal) (colOut (X m c) (Yt m c) (Y2 m c)) := by
  have h3 : t.val % 8 = 7 := (flush0_4 t).mp hf
  have hN := lt128 t
  obtain ⟨-, -, -, -, -, -, -, -, -, -, -, -, e0, e1, e2, -⟩ := idx_facts t
  show (cfg0.win 4).cut (grid0.coords t) ((dats m 0 c).after 4 t) = _
  rw [after0_4, out4_at m c t h3]
  funext j
  obtain ⟨u, w, q, rfl⟩ : ∃ (u : Fin 1) (w : Fin 1) (q : Fin 4096), j = ix3 u w q := ⟨j 0, j 1, j 2, eq_ix3 j⟩
  show k0_pay4 (F := Ideal) (Step.colAccV (X m c) (Yt m c) (Y2 m c) t.val) (ix3 u w q)
    = colOut (X m c) (Yt m c) (Y2 m c) (((cfg0.win 4).blk t).view.emb (ix3 u w q))
  rw [Tile.pay4_apply]
  show Chamfer.colAcc (X m c) (Yt m c) (Y2 m c) t.val q = Chamfer.colMin (X m c) (Yt m c) (Y2 m c) _ _
  rw [Chamfer.colAcc_last _ _ _ t.val hN h3 q]
  congr 1
  · apply Fin.ext
    show t.val / 8 = win0_4.index t (0 : Fin 3) * 1 + 1 * u.val
    have := u.isLt
    omega
  · apply Fin.ext
    show q.val = win0_4.index t (2 : Fin 3) * 4096 + 1 * q.val
    omega

/-- An index of the column output array is in position t's block iff each coordinate is in the block's range. -/
theorem mem_blk4 (t : Fin cfg0.N) (i : S16x1x4096.Idx) :
    i ∈ ((cfg0.win 4).blk t).view.set ↔ ∀ a : Fin 3, win0_4.index t a * S1x1x4096.size a ≤ (i a).val
      ∧ (i a).val < win0_4.index t a * S1x1x4096.size a + S1x1x4096.size a := by
  show i ∈ ((View.whole main_v11_1).slice (win0_4.rect t)).set ↔ _
  rw [View.set_slice_whole, Rect.mem_set_unit]
  exact Iff.rfl

/-- Every index of the column output array is written back: by the last tile of its cloud. -/
theorem cover4 (i : S16x1x4096.Idx) :
    ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 4096 := (i 2).isLt
  let t : Fin cfg0.N := ⟨8 * (i 0).val + 7, lt_of_lt_of_eq (by omega) (N_0.symm : 128 = grid0.N)⟩
  have htv : t.val = 8 * (i 0).val + 7 := rfl
  obtain ⟨-, -, -, -, -, -, -, -, -, -, -, -, e0, e1, e2, -⟩ := idx_facts t
  refine ⟨t, (flush0_4 t).mpr (by omega), ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1 ≤ (i 1).val ∧ (i 1).val < win0_4.index t (1 : Fin 3) * 1 + 1
    omega
  | ⟨2, _⟩ =>
    show win0_4.index t (2 : Fin 3) * 4096 ≤ (i 2).val ∧ (i 2).val < win0_4.index t (2 : Fin 3) * 4096 + 4096
    omega

/-- The column output array after the run holds the columns' minima. -/
theorem final4 (c : Dev nD) : (dats m 0 c).arrAt 4 cfg0.N = colOut (X m c) (Yt m c) (Y2 m c) :=
  (dats m 0 c).arrAt_eq_of_cover 4 (colOut (X m c) (Yt m c) (Y2 m c)) (flushed4_eq m c) cover4

end Cert.KernelIdeal.Arrays

end
-- ==== Proof.ChamferHost.lean ====
/-
  The host operations around the region.

  Before the region the host computes the three arrays the region reads from the arguments: the points
  reshaped to [16, 4096, 3]; the targets (columns 1 to 3 of the labels, minus 128, over 128) reshaped likewise
  and transposed to [16, 3, 4096]; and the targets' squared norms with a kept unit axis.  After the region it
  averages the rows' minima and the columns' minima of every cloud, adds the two averages, sums over the
  clouds and divides by 16: a function of the two output arrays alone, whatever else memory holds.
-/
import proofs.«157774_j4698694221980_2_alg».proof.Proof.ChamferBlocks
import Idealize.ShloMosaic.Lib.StableHlo.Run
import Idealize.ShloMosaic.Lib.Pipeline.FrameSuffix

noncomputable section

namespace Cert.KernelIdeal.Run

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.Walk

variable (m : (ℓ : Loc nD τ sig) → Buf (Elt Ideal) ℓ) (ρ : Dev nD → PrngReg)

/-! ## The host operations before the region -/

/-- The points, from the first argument. -/
def preX (a0 : S65536x3.Idx → EReal) : Chamfer.SX.Idx → EReal :=
  shapeCast S16x4096x3 a0 shapeCasts_S65536x3_S16x4096x3

/-- The targets, from the labels: columns 1 to 3, minus 128, over 128. -/
def preY (a2 : S65536x5.Idx → EReal) : S16x4096x3.Idx → EReal :=
  shapeCast S16x4096x3
    (Host.divf (F := Ideal)
      (subf (F := Ideal) (extractStridedSlice S65536x3 ![0, 1] a2 slices_S65536x5_S65536x3_0_1)
        (broadcastInDim S65536x3 ![] bcast_S_S65536x3 (constant (F := Ideal) S_ .f32 0x43000000#32)))
      (broadcastInDim S65536x3 ![] bcast_S_S65536x3 (constant (F := Ideal) S_ .f32 0x43000000#32)))
    shapeCasts_S65536x3_S16x4096x3

/-- The transposed targets. -/
def preYt (a2 : S65536x5.Idx → EReal) : Chamfer.SYt.Idx → EReal :=
  transpose S16x3x4096 [0, 2, 1] (preY a2) transposes_S16x4096x3_S16x3x4096_0_2_1

/-- The targets' squared norms, with a kept unit axis. -/
def preY2 (a2 : S65536x5.Idx → EReal) : Chamfer.SY2.Idx → EReal :=
  broadcastInDim S16x1x4096 ![0, 2] bcast_S16x4096_S16x1x4096_0_2
    (Host.reduceAdd (F := Ideal) (mulf (F := Ideal) (preY a2) (preY a2)) (constant (F := Ideal) S_ .f32 0x00000000#32)
      reducesTo_S16x4096x3_S16x4096_d2 h_S_)

theorem V_v5 (c : Dev nD) : X m c = preX (m ((c : Thread nD τ).loc main_arg0)) := by
  show StableHlo.after hostOps0 (fun b => m (c, b)) (Proc.devRef .tc main_v5) = _
  after_results
  rfl

theorem V_v7 (c : Dev nD) : Yt m c = preYt (m ((c : Thread nD τ).loc main_arg2)) := by
  show StableHlo.after hostOps0 (fun b => m (c, b)) (Proc.devRef .tc main_v7) = _
  after_results
  rfl

theorem V_v10 (c : Dev nD) : Y2 m c = preY2 (m ((c : Thread nD τ).loc main_arg2)) := by
  show StableHlo.after hostOps0 (fun b => m (c, b)) (Proc.devRef .tc main_v10) = _
  after_results
  rfl

/-! ## The host operations after the region -/

/-- The averages of the two arrays of minima per cloud, added, summed over the clouds, over 16. -/
def tail (a : S16x4096x1.Idx → EReal) (b : S16x1x4096.Idx → EReal) : S_.Idx → EReal :=
  Host.divf (F := Ideal)
    (Host.reduceAdd (F := Ideal)
      (addf (F := Ideal)
        (Host.divf (F := Ideal)
          (Host.reduceAdd (F := Ideal) (shapeCast S16x4096 a shapeCasts_S16x4096x1_S16x4096)
            (constant (F := Ideal) S_ .f32 0x00000000#32) reducesTo_S16x4096_S16_d1 h_S_)
          (broadcastInDim S16 ![] bcast_S_S16 (constant (F := Ideal) S_ .f32 0x45800000#32)))
        (Host.divf (F := Ideal)
          (Host.reduceAdd (F := Ideal) (shapeCast S16x4096 b shapeCasts_S16x1x4096_S16x4096)
            (constant (F := Ideal) S_ .f32 0x00000000#32) reducesTo_S16x4096_S16_d1 h_S_)
          (broadcastInDim S16 ![] bcast_S_S16 (constant (F := Ideal) S_ .f32 0x45800000#32))))
      (constant (F := Ideal) S_ .f32 0x00000000#32) reducesTo_S16_S_d0 h_S_)
    (constant (F := Ideal) S_ .f32 0x41800000#32)

/-- From any contents of memory, the operations after the region leave in the result buffer the tail of
    what the two output arrays hold. -/
theorem tail_after (W : Valuation τ sig (Elt Ideal)) :
    StableHlo.after (hostOps1 (F := Ideal)) W (Proc.devRef .tc main_v22)
      = tail (W (Proc.devRef .tc main_v11_0)) (W (Proc.devRef .tc main_v11_1)) := by
  after_results
  rfl

end Cert.KernelIdeal.Run

end
-- ==== Proof.ChamferKernelRun.lean ====
/-
  The idealized kernel's run, read to its result.

  Before the region the host computes the three arrays the region reads from the arguments: the points
  reshaped to [16, 4096, 3]; the targets (columns 1 to 3 of the labels, minus 128, over 128) reshaped likewise
  and transposed to [16, 3, 4096]; and the targets' squared norms with a kept unit axis.  After the region it
  averages the rows' minima and the columns' minima of every cloud, adds the two averages, sums over the
  clouds and divides by 16.  So every weakly fair execution ends with the result at that tail of the rows'
  and columns' minima of the distance matrix of those three arrays, the arguments unchanged.
-/
import proofs.«157774_j4698694221980_2_alg».proof.Proof.ChamferArrays
import proofs.«157774_j4698694221980_2_alg».proof.Proof.ChamferHost
import Idealize.ShloMosaic.Lib.StableHlo.Run
import Idealize.ShloMosaic.Lib.Pipeline.FrameSuffix

noncomputable section

namespace Cert.KernelIdeal.Run

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.Walk Cert.KernelIdeal.Arrays

variable (m : (ℓ : Loc nD τ sig) → Buf (Elt Ideal) ℓ) (ρ : Dev nD → PrngReg)

/-! ## The result buffer after the run -/

/-- The result buffer after the tail: the tail of the two output arrays as the region leaves them. -/
theorem tail_eq (c : Dev nD) :
    Pipeline.afterTail₀ cfgs (dats m) 0 (V0 m) [hostOps1] c main_v22
      = tail ((dats m 0 c).arrAt 3 cfg0.N) ((dats m 0 c).arrAt 4 cfg0.N) := by
  unfold Pipeline.afterTail₀
  refine (tail_after _).trans ?_
  exact congrArg₂ tail (Pipeline.withArrays_arr spec0 launch0.win.arr_inj c _ _ 3)
    (Pipeline.withArrays_arr spec0 launch0.win.arr_inj c _ _ 4)

/-! ## The run -/

/-- The result as a function of the two float arguments. -/
def result (a0 : S65536x3.Idx → EReal) (a2 : S65536x5.Idx → EReal) : S_.Idx → EReal :=
  tail (rowOut (preX a0) (preYt a2) (preY2 a2)) (colOut (preX a0) (preYt a2) (preY2 a2))

/-- Every weakly fair execution of the idealized kernel terminates with the result at that function of the
    arguments, the arguments unchanged. -/
theorem run : θ_run defs (onTc (τ := τ) (main (F := Ideal))) ⟨m, fun _ => 0, ρ⟩ (fun r => ∀ c : Dev nD,
      r.2.mem ((c.tc : Thread nD τ).loc main_v22)
        = result (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v22 (Pipeline.mem_restRefs_of main_v22 (by decide) (by decide))).trans
        ((tail_eq m c).trans (by rw [final3 m c, final4 m c, V_v5 m c, V_v7 m c, V_v10 m c]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.ChamferReference.lean ====
/-
  The reference's result, read index by index at the extended reals.

  The reference builds the whole [16, 4096, 4096] distance array: the points' squared norms broadcast along
  the columns plus the targets' squared norms broadcast along the rows, minus twice the batched product of the
  points with the transposed targets.  Read at (b, p, q) that is the distance of the specification over the
  reference's own three arrays.  Its two minimum reductions from +inf along the last and the middle axis are the
  rows' and the columns' infima, and the rest of the program is the same averaging tail as the kernel's.
-/
import proofs.«157774_j4698694221980_2_alg».proof.Proof.Gen.ReferenceIdeal.Read
import proofs.«157774_j4698694221980_2_alg».proof.Proof.ChamferSpec
import proofs.«157774_j4698694221980_2_alg».proof.Proof.LibMinMaxInf

noncomputable section

namespace Cert.ReferenceIdeal.RefValue

open Cert.ReferenceIdeal Cert.ReferenceIdeal.Gen Cert.ReferenceIdeal.Read
open Idealize.ShloMosaic Idealize.ShloMosaic.ValueIdx Cert.Lib.MinMaxInf
open scoped BigOperators

variable (x0 : (⟨S65536x3, .f32⟩ : BufTy).Contents (Elt Ideal)) (x2 : (⟨S65536x5, .f32⟩ : BufTy).Contents (Elt Ideal))

/-- The points, the transposed targets and the targets' squared norms, as the reference computes them. -/
abbrev RX : Chamfer.SX.Idx → EReal := val_main_v5 (F := Ideal) x0
abbrev RYt : Chamfer.SYt.Idx → EReal := val_main_v16 (F := Ideal) x2
abbrev RY2 : Chamfer.SY2.Idx → EReal := val_main_v12 (F := Ideal) x2

/-- The reference's distance array at (b, p, q). -/
theorem dist_apply (b : Fin 16) (p q : Fin 4096) :
    val_main_v20 (F := Ideal) x0 x2 (ix3 b p q) = Chamfer.dist (RX x0) (RYt x2) (RY2 x2) b p q := by
  have e8 : ∀ k : Fin 3, idx_main_v8 (idx_main_v11 (idx_main_v13 (ix3 b p q))) k = ix3 b p k := fun k =>
    funext fun a => Fin.ext (by match a with | ⟨0, _⟩ => rfl | ⟨1, _⟩ => rfl | ⟨2, _⟩ => rfl)
  have e14 : idx_main_v14 (ix3 b p q) = ix3 b (0 : Fin 1) q :=
    funext fun a => Fin.ext (by match a with | ⟨0, _⟩ => rfl | ⟨1, _⟩ => rfl | ⟨2, _⟩ => rfl)
  have el : ∀ k : Fin 3, lidx_main_v17 (ix3 b p q) k = ix3 b p k := fun k =>
    funext fun a => Fin.ext (by match a with | ⟨0, _⟩ => rfl | ⟨1, _⟩ => rfl | ⟨2, _⟩ => rfl)
  have er : ∀ k : Fin 3, ridx_main_v17 (ix3 b p q) k = ix3 b k q := fun k =>
    funext fun a => Fin.ext (by match a with | ⟨0, _⟩ => rfl | ⟨1, _⟩ => rfl | ⟨2, _⟩ => rfl)
  rw [val_main_v20_apply, val_main_v15_apply, val_main_v19_apply, val_main_v13_apply, val_main_v11_apply,
    val_main_v8_apply, val_main_v14_apply, val_main_v17_apply, val_main_v18_apply]
  unfold Chamfer.dist Chamfer.two
  simp only [val_main_v7_apply, e8, e14, el, er, val_main_cst_1_apply, val_main_cst_3_apply, Ideal.ofBits_def,
    Ideal.ofBits_zero_f32, zero_add, Ideal.addf_def, Ideal.subf_def, Ideal.mulf_def]

/-- The minimum along the last axis, at (b, p): the nearest target of point p. -/
theorem v21_apply (b : Fin 16) (p : Fin 4096) :
    val_main_v21 (F := Ideal) x0 x2 (ix2 b p) = Chamfer.rowMin (RX x0) (RYt x2) (RY2 x2) b p := by
  unfold val_main_v21
  rw [hostReduce_minimumf_single _ _ reducesTo_S16x4096x4096_S16x4096_d2 (by decide) h_S_ (ix2 b p)]
  rw [val_main_cst_4_apply, Ideal.ofBits_def, ofBits_posInf_f32, top_inf_eq]
  unfold Chamfer.rowMin
  refine Finset.inf_congr rfl fun q _ => ?_
  rw [← dist_apply x0 x2 b p q]
  exact congrArg (val_main_v20 (F := Ideal) x0 x2) (funext fun a => Fin.ext (by match a with | ⟨0, _⟩ => rfl | ⟨1, _⟩ => rfl | ⟨2, _⟩ => rfl))

/-- The minimum along the middle axis, at (b, q): the nearest point of target q. -/
theorem v25_apply (b : Fin 16) (q : Fin 4096) :
    val_main_v25 (F := Ideal) x0 x2 (ix2 b q) = Chamfer.colMin (RX x0) (RYt x2) (RY2 x2) b q := by
  unfold val_main_v25
  rw [hostReduce_minimumf_single _ _ reducesTo_S16x4096x4096_S16x4096_d1 (by decide) h_S_ (ix2 b q)]
  rw [val_main_cst_7_apply, Ideal.ofBits_def, ofBits_posInf_f32, top_inf_eq]
  unfold Chamfer.colMin
  refine Finset.inf_congr rfl fun p _ => ?_
  rw [← dist_apply x0 x2 b p q]
  exact congrArg (val_main_v20 (F := Ideal) x0 x2) (funext fun a => Fin.ext (by match a with | ⟨0, _⟩ => rfl | ⟨1, _⟩ => rfl | ⟨2, _⟩ => rfl))

/-- The rows' minima and the columns' minima as [16, 4096] arrays. -/
def rowArr (X : Chamfer.SX.Idx → EReal) (Yt : Chamfer.SYt.Idx → EReal) (Y2 : Chamfer.SY2.Idx → EReal) :
    S16x4096.Idx → EReal := fun j => Chamfer.rowMin X Yt Y2 (j 0) (j 1)
def colArr (X : Chamfer.SX.Idx → EReal) (Yt : Chamfer.SYt.Idx → EReal) (Y2 : Chamfer.SY2.Idx → EReal) :
    S16x4096.Idx → EReal := fun j => Chamfer.colMin X Yt Y2 (j 0) (j 1)

theorem v21_eq : val_main_v21 (F := Ideal) x0 x2 = rowArr (RX x0) (RYt x2) (RY2 x2) := by
  funext j
  obtain ⟨b, p, rfl⟩ : ∃ (b : Fin 16) (p : Fin 4096), j = ix2 b p := ⟨j 0, j 1, eq_ix2 j⟩
  exact v21_apply x0 x2 b p

theorem v25_eq : val_main_v25 (F := Ideal) x0 x2 = colArr (RX x0) (RYt x2) (RY2 x2) := by
  funext j
  obtain ⟨b, q, rfl⟩ : ∃ (b : Fin 16) (q : Fin 4096), j = ix2 b q := ⟨j 0, j 1, eq_ix2 j⟩
  exact v25_apply x0 x2 b q

/-- The averages of the two arrays of minima per cloud, added, summed over the clouds, over 16. -/
def tail (a b : S16x4096.Idx → EReal) : S_.Idx → EReal :=
  Host.divf (F := Ideal)
    (Host.reduceAdd (F := Ideal)
      (addf (F := Ideal)
        (Host.divf (F := Ideal)
          (Host.reduceAdd (F := Ideal) a (constant (F := Ideal) S_ .f32 0x00000000#32) reducesTo_S16x4096_S16_d1 h_S_)
          (broadcastInDim S16 ![] bcast_S_S16 (constant (F := Ideal) S_ .f32 0x45800000#32)))
        (Host.divf (F := Ideal)
          (Host.reduceAdd (F := Ideal) b (constant (F := Ideal) S_ .f32 0x00000000#32) reducesTo_S16x4096_S16_d1 h_S_)
          (broadcastInDim S16 ![] bcast_S_S16 (constant (F := Ideal) S_ .f32 0x45800000#32))))
      (constant (F := Ideal) S_ .f32 0x00000000#32) reducesTo_S16_S_d0 h_S_)
    (constant (F := Ideal) S_ .f32 0x41800000#32)

/-- The reference's result is that tail of its two minimum reductions. -/
theorem v31_eq_tail :
    val_main_v31 (F := Ideal) x0 x2 = tail (val_main_v21 (F := Ideal) x0 x2) (val_main_v25 (F := Ideal) x0 x2) := rfl

/-- The reference's result: the tail of the rows' and the columns' minima of the distance over its three arrays. -/
theorem result_eq :
    val_main_v31 (F := Ideal) x0 x2
      = tail (rowArr (RX x0) (RYt x2) (RY2 x2)) (colArr (RX x0) (RYt x2) (RY2 x2)) := by
  rw [v31_eq_tail, v21_eq, v25_eq]

end Cert.ReferenceIdeal.RefValue

end
-- ==== Proof.LibUnitAxis.lean ====
/-
  A unit axis that is not the leading one, dropped by a shape cast, read at an index built from literal
  coordinates:
    • an [a, b, 1] array cast to [a, b] reads, at (i, j), the operand at (i, j, 0);
    • an [a, 1, b] array cast to [a, b] reads, at (i, j), the operand at (i, 0, j).
  Both keep the row-major position.  They complete the library's small-shape lemmas, which have the leading-unit
  forms [1, a, b] ↔ [a, b].
-/
import Idealize.ShloMosaic.Lib.Pipeline.Value
import Idealize.ShloMosaic.Lib.ValueIdx

noncomputable section

namespace Cert.Lib.UnitAxis

open Idealize.ShloMosaic Idealize.ShloMosaic.ValueIdx

variable {α : Type}

/-- An [a, b, 1] array cast to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.UnitAxis

end
-- ==== Proof.ChamferBridge.lean ====
/-
  The two results are one function of the arguments.

  The kernel's result is the averaging tail of its two output arrays, which hold the rows' and the columns' minima
  of the distance matrix of the three arrays its host operations compute; the reference's result is the same
  tail of the same minima of the distance matrix of the three arrays it computes.  The three arrays are the same
  terms of the arguments on both sides, and the kernel's output arrays [16, 4096, 1] and [16, 1, 4096], cast to
  [16, 4096] before the tail, read the same entries as the reference's [16, 4096] arrays of minima.
-/
import proofs.«157774_j4698694221980_2_alg».proof.Proof.ChamferKernelRun
import proofs.«157774_j4698694221980_2_alg».proof.Proof.ChamferReference
import proofs.«157774_j4698694221980_2_alg».proof.Proof.LibUnitAxis

noncomputable section

namespace Cert.Proof.Bridge

open Idealize.ShloMosaic Idealize.ShloMosaic.ValueIdx

/-- The kernel's row output array cast to [16, 4096] is the array of the rows' minima. -/
theorem rows_eq (X : Chamfer.SX.Idx → EReal) (Yt : Chamfer.SYt.Idx → EReal) (Y2 : Chamfer.SY2.Idx → EReal)
    (h : Cert.KernelIdeal.S16x4096x1.ShapeCasts Cert.KernelIdeal.S16x4096) :
    shapeCast Cert.KernelIdeal.S16x4096 (Cert.KernelIdeal.Arrays.rowOut X Yt Y2) h
      = Cert.ReferenceIdeal.RefValue.rowArr X Yt Y2 := by
  funext j
  obtain ⟨b, p, rfl⟩ : ∃ (b : Fin 16) (p : Fin 4096), j = ix2 b p := ⟨j 0, j 1, eq_ix2 j⟩
  exact Cert.Lib.UnitAxis.shapeCast_ab1_ab_apply _ h b p

/-- The kernel's column output array cast to [16, 4096] is the array of the columns' minima. -/
theorem cols_eq (X : Chamfer.SX.Idx → EReal) (Yt : Chamfer.SYt.Idx → EReal) (Y2 : Chamfer.SY2.Idx → EReal)
    (h : Cert.KernelIdeal.S16x1x4096.ShapeCasts Cert.KernelIdeal.S16x4096) :
    shapeCast Cert.KernelIdeal.S16x4096 (Cert.KernelIdeal.Arrays.colOut X Yt Y2) h
      = Cert.ReferenceIdeal.RefValue.colArr X Yt Y2 := by
  funext j
  obtain ⟨b, q, rfl⟩ : ∃ (b : Fin 16) (q : Fin 4096), j = ix2 b q := ⟨j 0, j 1, eq_ix2 j⟩
  exact Cert.Lib.UnitAxis.shapeCast_a1b_ab_apply _ h b q

/-- The reference's result is the kernel's function of the two float arguments. -/
theorem result_eq (a0 : (⟨Cert.ReferenceIdeal.S65536x3, .f32⟩ : BufTy).Contents (Elt Ideal))
    (a2 : (⟨Cert.ReferenceIdeal.S65536x5, .f32⟩ : BufTy).Contents (Elt Ideal)) :
    Cert.ReferenceIdeal.Read.val_main_v31 (F := Ideal) a0 a2 = Cert.KernelIdeal.Run.result a0 a2 := by
  rw [Cert.ReferenceIdeal.RefValue.result_eq]
  unfold Cert.KernelIdeal.Run.result Cert.KernelIdeal.Run.tail
  rw [rows_eq, cols_eq]
  rfl

end Cert.Proof.Bridge

end
-- ==== Proof.lean ====
/-
  The certificate of the Chamfer-distance kernel against its jnp reference, at the extended reals.

  For 16 clouds of 4096 points x and 4096 targets y, both programs compute
      (1/16) Σ_b [ (1/4096) Σ_p min_q d(b,p,q) + (1/4096) Σ_q min_p d(b,p,q) ],
      d(b,p,q) = (Σ_k x(b,p,k)² + Σ_k y(b,q,k)²) − 2 Σ_k x(b,p,k) y(b,q,k).
  The reference builds the whole 16 by 4096 by 4096 array d and reduces it; the kernel walks each cloud in 2 by 4
  tiles of 2048 by 1024, keeping a running minimum per row and per column, and never builds d.  At the
  extended reals a minimum is an infimum, so the minimum over a row taken tile by tile is the minimum over the
  row: the two results are equal for every input (finiteness of the inputs is not used).

  The three frames are the generated ones (the reference's is its generated run with the result dropped); the
  idealization rewrote nothing, so the kernel's idealization is the kernel's own text.  The equality of the two
  results is assembled here from the kernel's run read to its result and the reference's run read index by index.
-/
import proofs.«157774_j4698694221980_2_alg».proof.Defs
import proofs.«157774_j4698694221980_2_alg».proof.Proof.Gen.Kernel
import proofs.«157774_j4698694221980_2_alg».proof.Proof.Gen.Kernel.Skeleton
import proofs.«157774_j4698694221980_2_alg».proof.Proof.Gen.Kernel.Launch
import proofs.«157774_j4698694221980_2_alg».proof.Proof.Gen.Kernel.Points
import proofs.«157774_j4698694221980_2_alg».proof.Proof.Gen.Kernel.Frame
import proofs.«157774_j4698694221980_2_alg».proof.Proof.Gen.KernelIdeal
import proofs.«157774_j4698694221980_2_alg».proof.Proof.Gen.KernelIdeal.Skeleton
import proofs.«157774_j4698694221980_2_alg».proof.Proof.Gen.KernelIdeal.Launch
import proofs.«157774_j4698694221980_2_alg».proof.Proof.Gen.KernelIdeal.Points
import proofs.«157774_j4698694221980_2_alg».proof.Proof.Gen.KernelIdeal.Frame
import proofs.«157774_j4698694221980_2_alg».proof.Proof.Gen.ReferenceIdeal
import proofs.«157774_j4698694221980_2_alg».proof.Proof.Gen.Pre_finite_inputs
import proofs.«157774_j4698694221980_2_alg».proof.Proof.Gen.ReferenceIdeal.Run
import proofs.«157774_j4698694221980_2_alg».proof.Proof.Gen.ReferenceIdeal.Read
import proofs.«157774_j4698694221980_2_alg».proof.Proof.ChamferBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the kernel's function of the arguments
    in their result buffers. -/
theorem algebraic : Cert.algebraic_KernelIdeal_ReferenceIdeal := by
  intro m ρ m' ρ' _ hagree
  refine ⟨fun c => Cert.KernelIdeal.Run.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.2]
  exact Bridge.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
